-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x256 : Shape := ⟨3, ![64, 2048, 256]⟩
abbrev S64 : Shape := ⟨1, ![64]⟩
abbrev S5000x512 : Shape := ⟨2, ![5000, 512]⟩
abbrev S5000x256 : Shape := ⟨2, ![5000, 256]⟩
abbrev S_ : Shape := ⟨0, ![]⟩

class Facts : Prop where
  bcast_S_S64x2048x256 : S_.BroadcastsInDim S64x2048x256 (![] : Fin 0 → Fin S64x2048x256.rank)
  reducesTo_S64x2048x256_S_d0_1_2 : S64x2048x256.ReducesTo [0, 1, 2] S_
  h_S_ : 0 < S_.numel
  bcast_S_S5000x512 : S_.BroadcastsInDim S5000x512 (![] : Fin 0 → Fin S5000x512.rank)
  reducesTo_S5000x512_S_d0_1 : S5000x512.ReducesTo [0, 1] S_
  bcast_S_S5000x256 : S_.BroadcastsInDim S5000x256 (![] : Fin 0 → Fin S5000x256.rank)
  reducesTo_S5000x256_S_d0_1 : S5000x256.ReducesTo [0, 1] S_

variable [Facts]

def fn_part1 {F : FTy → Type} [FloatOps F] (main_v13 : IVec S_ 1) (main_v16 : IVec S5000x256 1) : IVec S_ 1 :=
  let main_c_5 : IVec S_ 1 := constantI S_ 1 1#1
  let main_v17 : IVec S_ 1 := (fun x v => Host.reduce IntOp.andi x v reducesTo_S5000x256_S_d0_1 h_S_) main_v16 main_c_5
  let main_v18 : IVec S_ 1 := andi main_v13 main_v17
  main_v18

def fn {F : FTy → Type} [FloatOps F] (main_arg0 : FVec F S64x2048x256 .f32) (main_arg1 : IVec S64 32) (main_arg2 : FVec F S5000x512 .f32) (main_arg3 : FVec F S5000x512 .f32) (main_arg4 : FVec F S5000x256 .f32) : IVec S_ 1 :=
  let main_v0 : FVec F S64x2048x256 .f32 := Host.absf main_arg0
  let main_cst : FVec F S_ .f32 := constant S_ .f32 0x7F800000#32
  let main_v1 : FVec F S64x2048x256 .f32 := broadcastInDim S64x2048x256 ![] bcast_S_S64x2048x256 main_cst
  let main_v2 : IVec S64x2048x256 1 := cmpf .olt main_v0 main_v1
  let main_c : IVec S_ 1 := constantI S_ 1 1#1
  let main_v3 : IVec S_ 1 := (fun x v => Host.reduce IntOp.andi x v reducesTo_S64x2048x256_S_d0_1_2 h_S_) main_v2 main_c
  let main_v4 : FVec F S5000x512 .f32 := Host.absf main_arg2
  let main_cst_0 : FVec F S_ .f32 := constant S_ .f32 0x7F800000#32
  let main_v5 : FVec F S5000x512 .f32 := broadcastInDim S5000x512 ![] bcast_S_S5000x512 main_cst_0
  let main_v6 : IVec S5000x512 1 := cmpf .olt main_v4 main_v5
  let main_c_1 : IVec S_ 1 := constantI S_ 1 1#1
  let main_v7 : IVec S_ 1 := (fun x v => Host.reduce IntOp.andi x v reducesTo_S5000x512_S_d0_1 h_S_) main_v6 main_c_1
  let main_v8 : IVec S_ 1 := andi main_v3 main_v7
  let main_v9 : FVec F S5000x512 .f32 := Host.absf main_arg3
  let main_cst_2 : FVec F S_ .f32 := constant S_ .f32 0x7F800000#32
  let main_v10 : FVec F S5000x512 .f32 := broadcastInDim S5000x512 ![] bcast_S_S5000x512 main_cst_2
  let main_v11 : IVec S5000x512 1 := cmpf .olt main_v9 main_v10
  let main_c_3 : IVec S_ 1 := constantI S_ 1 1#1
  let main_v12 : IVec S_ 1 := (fun x v => Host.reduce IntOp.andi x v reducesTo_S5000x512_S_d0_1 h_S_) main_v11 main_c_3
  let main_v13 : IVec S_ 1 := andi main_v8 main_v12
  let main_v14 : FVec F S5000x256 .f32 := Host.absf main_arg4
  let main_cst_4 : FVec F S_ .f32 := constant S_ .f32 0x7F800000#32
  let main_v15 : FVec F S5000x256 .f32 := broadcastInDim S5000x256 ![] bcast_S_S5000x256 main_cst_4
  let main_v16 : IVec S5000x256 1 := cmpf .olt main_v14 main_v15
  fn_part1 (F := F) main_v13 main_v16
-- ==== Kernel.lean ====
abbrev S64x2048x256 : Shape := ⟨3, ![64, 2048, 256]⟩
abbrev S64 : Shape := ⟨1, ![64]⟩
abbrev S5000x512 : Shape := ⟨2, ![5000, 512]⟩
abbrev S5000x256 : Shape := ⟨2, ![5000, 256]⟩
abbrev S_ : Shape := ⟨0, ![]⟩
abbrev S64x1 : Shape := ⟨2, ![64, 1]⟩
abbrev S64x512 : Shape := ⟨2, ![64, 512]⟩
abbrev S64x256x2 : Shape := ⟨3, ![64, 256, 2]⟩
abbrev S64x256 : Shape := ⟨2, ![64, 256]⟩
abbrev S64x256x1 : Shape := ⟨3, ![64, 256, 1]⟩
abbrev S64x1x256 : Shape := ⟨3, ![64, 1, 256]⟩
abbrev S64x5x256 : Shape := ⟨3, ![64, 5, 256]⟩
abbrev S16x512x256 : Shape := ⟨3, ![16, 512, 256]⟩
abbrev S16x5x256 : Shape := ⟨3, ![16, 5, 256]⟩
abbrev S16x1x256 : Shape := ⟨3, ![16, 1, 256]⟩
abbrev S16x256 : Shape := ⟨2, ![16, 256]⟩
abbrev S16x128x256 : Shape := ⟨3, ![16, 128, 256]⟩
abbrev S16x128 : Shape := ⟨2, ![16, 128]⟩
abbrev S16x128x1 : Shape := ⟨3, ![16, 128, 1]⟩

abbrev nBuf : Space → Nat
  | .hbm => 49
  | .vmem => 5
  | .smem => 0
  | _ => 0

abbrev bufTy : (tb : Table) → Fin (tcTables nBuf tb) → BufTy
  | .hbm, ⟨0, _⟩ => ⟨S64x2048x256, .f32⟩
  | .hbm, ⟨1, _⟩ => ⟨S64, .i32⟩
  | .hbm, ⟨2, _⟩ => ⟨S5000x512, .f32⟩
  | .hbm, ⟨3, _⟩ => ⟨S5000x512, .f32⟩
  | .hbm, ⟨4, _⟩ => ⟨S5000x256, .f32⟩
  | .hbm, ⟨5, _⟩ => ⟨S_, .i32⟩
  | .hbm, ⟨6, _⟩ => ⟨S64, .i32⟩
  | .hbm, ⟨7, _⟩ => ⟨S64, .i1⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S64x1, .i32⟩
  | .hbm, ⟨13, _⟩ => ⟨S64x512, .f32⟩
  | .hbm, ⟨14, _⟩ => ⟨S64x256x2, .f32⟩
  | .hbm, ⟨15, _⟩ => ⟨S_, .i32⟩
  | .hbm, ⟨16, _⟩ => ⟨S64, .i32⟩
  | .hbm, ⟨17, _⟩ => ⟨S64, .i1⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S64, .i32⟩
  | .hbm, ⟨22, _⟩ => ⟨S64x1, .i32⟩
  | .hbm, ⟨23, _⟩ => ⟨S64x512, .f32⟩
  | .hbm, ⟨24, _⟩ => ⟨S64x256x2, .f32⟩
  | .hbm, ⟨25, _⟩ => ⟨S_, .i32⟩
  | .hbm, ⟨26, _⟩ => ⟨S64, .i32⟩
  | .hbm, ⟨27, _⟩ => ⟨S64, .i1⟩
  | .hbm, ⟨28, _⟩ => ⟨S_, .i32⟩
  | .hbm, ⟨29, _⟩ => ⟨S64, .i32⟩
  | .hbm, ⟨30, _⟩ => ⟨S64, .i32⟩
  | .hbm, ⟨31, _⟩ => ⟨S64, .i32⟩
  | .hbm, ⟨32, _⟩ => ⟨S64x1, .i32⟩
  | .hbm, ⟨33, _⟩ => ⟨S64x256, .f32⟩
  | .hbm, ⟨34, _⟩ => ⟨S64x256x1, .f32⟩
  | .hbm, ⟨35, _⟩ => ⟨S64x256, .f32⟩
  | .hbm, ⟨36, _⟩ => ⟨S64x256x1, .f32⟩
  | .hbm, ⟨37, _⟩ => ⟨S64x256, .f32⟩
  | .hbm, ⟨38, _⟩ => ⟨S64x256x1, .f32⟩
  | .hbm, ⟨39, _⟩ => ⟨S64x256, .f32⟩
  | .hbm, ⟨40, _⟩ => ⟨S64x256x1, .f32⟩
  | .hbm, ⟨41, _⟩ => ⟨S64x256, .f32⟩
  | .hbm, ⟨42, _⟩ => ⟨S64x1x256, .f32⟩
  | .hbm, ⟨43, _⟩ => ⟨S64x1x256, .f32⟩
  | .hbm, ⟨44, _⟩ => ⟨S64x1x256, .f32⟩
  | .hbm, ⟨45, _⟩ => ⟨S64x1x256, .f32⟩
  | .hbm, ⟨46, _⟩ => ⟨S64x1x256, .f32⟩
  | .hbm, ⟨47, _⟩ => ⟨S64x5x256, .f32⟩
  | .hbm, ⟨48, _⟩ => ⟨S64x2048x256, .f32⟩
  | .local _ .vmem, ⟨0, _⟩ => ⟨S16x512x256, .f32⟩
  | .local _ .vmem, ⟨1, _⟩ => ⟨S16x512x256, .f32⟩
  | .local _ .vmem, ⟨2, _⟩ => ⟨S16x5x256, .f32⟩
  | .local _ .vmem, ⟨3, _⟩ => ⟨S16x512x256, .f32⟩
  | .local _ .vmem, ⟨4, _⟩ => ⟨S16x512x256, .f32⟩
  | _, _ => ⟨S64x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c4_i32 : BitVec 32 := 4#32
  let v17 : BitVec 32 := Scalar.addi c0_i32 c4_i32
  let c1_i32 : BitVec 32 := 1#32
  ⟨c0_i32, v17, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v18 : BitVec 32 := Scalar.muli arg5 c128_i32
  v18
def k0_off1 (k0_t1 : Fin k0_t1_loop.trips) : Fin 3 → Nat :=
  let c0_3 : Index := 0#32
  let c0_i32 : BitVec 32 := 0#32
  let c1_i32 : BitVec 32 := 1#32
  let arg5 : BitVec 32 := Scf.iv c0_i32 c1_i32 k0_t1
  let c128_i32 : BitVec 32 := 128#32
  let v18 : BitVec 32 := Scalar.muli arg5 c128_i32
  let v19 : BitVec 32 := v18
  let v20 : Index := Scalar.indexCast v19
  let c0_4 : Index := 0#32
  ![0, v20.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x5x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S16x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S64 : S_.BroadcastsInDim S64 (![] : Fin 0 → Fin S64.rank)
  bcast_S64_S64x1_0 : S64.BroadcastsInDim S64x1 (![0] : Fin 1 → Fin S64x1.rank)
  shapeCasts_S64x512_S64x256x2 : S64x512.ShapeCasts S64x256x2
  slices_S64x256x2_S64x256x1_0_0_0 : S64x256x2.Slices ![0, 0, 0] S64x256x1
  shapeCasts_S64x256x1_S64x256 : S64x256x1.ShapeCasts S64x256
  slices_S64x256x2_S64x256x1_0_0_1 : S64x256x2.Slices ![0, 0, 1] S64x256x1
  bcast_S64x256_S64x1x256_0_2 : S64x256.BroadcastsInDim S64x1x256 (![0, 2] : Fin 2 → Fin S64x1x256.rank)
  concatenates_S64x1x256_S64x1x256_S64x1x256_S64x1x256_S64x1x256_S64x5x256_d1 : Shape.Concatenates [S64x1x256, S64x1x256, S64x1x256, S64x1x256, S64x1x256] S64x5x256 1
  inb_S16x5x256_S16x5x256_0_0_0 : ∀ a, (![0, 0, 0] : Fin 3 → Nat) a + S16x5x256.size a ≤ S16x5x256.size a
  h_S16x5x256 : 0 < S16x5x256.numel
  shapeCasts_S16x5x256_S16x5x256 : S16x5x256.ShapeCasts S16x5x256
  slices_S16x5x256_o0_0_0_S16x1x256 : S16x5x256.Slices ![0, 0, 0] S16x1x256
  shapeCasts_S16x1x256_S16x256 : S16x1x256.ShapeCasts S16x256
  shapeCasts_S16x256_S16x1x256 : S16x256.ShapeCasts S16x1x256
  slices_S16x5x256_o0_1_0_S16x1x256 : S16x5x256.Slices ![0, 1, 0] S16x1x256
  slices_S16x5x256_o0_2_0_S16x1x256 : S16x5x256.Slices ![0, 2, 0] S16x1x256
  slices_S16x5x256_o0_3_0_S16x1x256 : S16x5x256.Slices ![0, 3, 0] S16x1x256
  slices_S16x5x256_o0_4_0_S16x1x256 : S16x5x256.Slices ![0, 4, 0] S16x1x256
  h_S16x128x256 : 0 < S16x128x256.numel
  broadcasts_S16x1x256_S16x128x256 : S16x1x256.Broadcasts S16x128x256
  reduces_S16x128x256_S16x128 : S16x128x256.Reduces [2] S16x128
  shapeCasts_S16x128_S16x128x1 : S16x128.ShapeCasts S16x128x1
  broadcasts_S16x128x1_S16x128x256 : S16x128x1.Broadcasts S16x128x256
  gather_S5000x512_S64x1_S64x512_1_0_n_n_0_1_1512_wf : GatherDims.WF S5000x512 S64x1 S64x512 [1] [0] [] [0] [] 1 ![1, 512]
  gather_S5000x256_S64x1_S64x256_1_0_n_n_0_1_1256_wf : GatherDims.WF S5000x256 S64x1 S64x256 [1] [0] [] [0] [] 1 ![1, 256]
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S16x128x256.size a ≤ S16x512x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x256.size a ≤ S64x2048x256.size a
  hwx0_0 : ∀ i : grid0.Coords, EltTy.bits .f32 = 32 ∨ (Rect.block (s := S64x2048x256) S16x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x5x256.size a ≤ S64x5x256.size a
  hwx0_1 : ∀ i : grid0.Coords, EltTy.bits .f32 = 32 ∨ (Rect.block (s := S64x5x256) S16x5x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512x256.size a ≤ S64x2048x256.size a
  hwx0_2 : ∀ i : grid0.Coords, EltTy.bits .f32 = 32 ∨ (Rect.block (s := S64x2048x256) S16x512x256.size (cc0_transform_2 i) (hinb0_2 i)).WholeWords (EltTy.packing .f32)

variable [Facts₀]

def gather_S5000x512_S64x1_S64x512_1_0_n_n_0_1_1512 : GatherDims S5000x512 S64x1 S64x512 where
  offsetDims := [1]
  collapsedSliceDims := [0]
  operandBatchingDims := []
  startIndicesBatchingDims := []
  startIndexMap := [0]
  indexVectorDim := 1
  sliceSizes := ![1, 512]
  wf := gather_S5000x512_S64x1_S64x512_1_0_n_n_0_1_1512_wf
def gather_S5000x256_S64x1_S64x256_1_0_n_n_0_1_1256 : GatherDims S5000x256 S64x1 S64x256 where
  offsetDims := [1]
  collapsedSliceDims := [0]
  operandBatchingDims := []
  startIndicesBatchingDims := []
  startIndexMap := [0]
  indexVectorDim := 1
  sliceSizes := ![1, 256]
  wf := gather_S5000x256_S64x1_S64x256_1_0_n_n_0_1_1256_wf

abbrev win0_0 : Pipeline.Window sig grid0 :=
  Pipeline.Window.ofSpec (Memref.whole main_arg0) S16x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S16x5x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S16x512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x2048x256 : Shape := ⟨3, ![64, 2048, 256]⟩
abbrev S64 : Shape := ⟨1, ![64]⟩
abbrev S5000x512 : Shape := ⟨2, ![5000, 512]⟩
abbrev S5000x256 : Shape := ⟨2, ![5000, 256]⟩
abbrev S_ : Shape := ⟨0, ![]⟩
abbrev S64x1 : Shape := ⟨2, ![64, 1]⟩
abbrev S64x512 : Shape := ⟨2, ![64, 512]⟩
abbrev S64x256x2 : Shape := ⟨3, ![64, 256, 2]⟩
abbrev S64x256 : Shape := ⟨2, ![64, 256]⟩
abbrev S64x2048x2 : Shape := ⟨3, ![64, 2048, 2]⟩
abbrev S64x1x256 : Shape := ⟨3, ![64, 1, 256]⟩

abbrev nBuf : Space → Nat
  | .hbm => 39
  | .vmem => 0
  | .smem => 0
  | _ => 0

abbrev bufTy : (tb : Table) → Fin (tcTables nBuf tb) → BufTy
  | .hbm, ⟨0, _⟩ => ⟨S64x2048x256, .f32⟩
  | .hbm, ⟨1, _⟩ => ⟨S64, .i32⟩
  | .hbm, ⟨2, _⟩ => ⟨S5000x512, .f32⟩
  | .hbm, ⟨3, _⟩ => ⟨S5000x512, .f32⟩
  | .hbm, ⟨4, _⟩ => ⟨S5000x256, .f32⟩
  | .hbm, ⟨5, _⟩ => ⟨S_, .i32⟩
  | .hbm, ⟨6, _⟩ => ⟨S64, .i32⟩
  | .hbm, ⟨7, _⟩ => ⟨S64, .i1⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S64x1, .i32⟩
  | .hbm, ⟨13, _⟩ => ⟨S64x512, .f32⟩
  | .hbm, ⟨14, _⟩ => ⟨S64x256x2, .f32⟩
  | .hbm, ⟨15, _⟩ => ⟨S_, .i32⟩
  | .hbm, ⟨16, _⟩ => ⟨S64, .i32⟩
  | .hbm, ⟨17, _⟩ => ⟨S64, .i1⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S64, .i32⟩
  | .hbm, ⟨22, _⟩ => ⟨S64x1, .i32⟩
  | .hbm, ⟨23, _⟩ => ⟨S64x512, .f32⟩
  | .hbm, ⟨24, _⟩ => ⟨S64x256x2, .f32⟩
  | .hbm, ⟨25, _⟩ => ⟨S_, .i32⟩
  | .hbm, ⟨26, _⟩ => ⟨S64, .i32⟩
  | .hbm, ⟨27, _⟩ => ⟨S64, .i1⟩
  | .hbm, ⟨28, _⟩ => ⟨S_, .i32⟩
  | .hbm, ⟨29, _⟩ => ⟨S64, .i32⟩
  | .hbm, ⟨30, _⟩ => ⟨S64, .i32⟩
  | .hbm, ⟨31, _⟩ => ⟨S64, .i32⟩
  | .hbm, ⟨32, _⟩ => ⟨S64x1, .i32⟩
  | .hbm, ⟨33, _⟩ => ⟨S64x256, .f32⟩
  | .hbm, ⟨34, _⟩ => ⟨S64x2048x2, .f32⟩
  | .hbm, ⟨35, _⟩ => ⟨S64x2048x256, .f32⟩
  | .hbm, ⟨36, _⟩ => ⟨S64x1x256, .f32⟩
  | .hbm, ⟨37, _⟩ => ⟨S64x2048x256, .f32⟩
  | .hbm, ⟨38, _⟩ => ⟨S64x2048x256, .f32⟩
  | _, _ => ⟨S64x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  shapeCasts_S64x512_S64x256x2 : S64x512.ShapeCasts S64x256x2
  bcast_S64x256_S64x1x256_0_2 : S64x256.BroadcastsInDim S64x1x256 (![0, 2] : Fin 2 → Fin S64x1x256.rank)
  bcast_S64x1x256_S64x2048x256_0_1_2 : S64x1x256.BroadcastsInDim S64x2048x256 (![0, 1, 2] : Fin 3 → Fin S64x2048x256.rank)
  gather_S5000x512_S64x1_S64x512_1_0_n_n_0_1_1512_wf : GatherDims.WF S5000x512 S64x1 S64x512 [1] [0] [] [0] [] 1 ![1, 512]
  gather_S5000x256_S64x1_S64x256_1_0_n_n_0_1_1256_wf : GatherDims.WF S5000x256 S64x1 S64x256 [1] [0] [] [0] [] 1 ![1, 256]
  dot_S64x2048x256_S64x256x2_S64x2048x2_2_1_1_2_0_0_wf : DotDims.WF S64x2048x256 S64x256x2 S64x2048x2 [2] [1] [1] [2] [0] [0]
  dot_S64x2048x2_S64x256x2_S64x2048x256_2_2_1_1_0_0_wf : DotDims.WF S64x2048x2 S64x256x2 S64x2048x256 [2] [2] [1] [1] [0] [0]

variable [Facts₀]

def gather_S5000x512_S64x1_S64x512_1_0_n_n_0_1_1512 : GatherDims S5000x512 S64x1 S64x512 where
  offsetDims := [1]
  collapsedSliceDims := [0]
  operandBatchingDims := []
  startIndicesBatchingDims := []
  startIndexMap := [0]
  indexVectorDim := 1
  sliceSizes := ![1, 512]
  wf := gather_S5000x512_S64x1_S64x512_1_0_n_n_0_1_1512_wf
def gather_S5000x256_S64x1_S64x256_1_0_n_n_0_1_1256 : GatherDims S5000x256 S64x1 S64x256 where
  offsetDims := [1]
  collapsedSliceDims := [0]
  operandBatchingDims := []
  startIndicesBatchingDims := []
  startIndexMap := [0]
  indexVectorDim := 1
  sliceSizes := ![1, 256]
  wf := gather_S5000x256_S64x1_S64x256_1_0_n_n_0_1_1256_wf
def dot_S64x2048x256_S64x256x2_S64x2048x2_2_1_1_2_0_0 : DotDims S64x2048x256 S64x256x2 S64x2048x2 where
  lhsContracting := [2]
  rhsContracting := [1]
  lhsNonContracting := [1]
  rhsNonContracting := [2]
  lhsBatch := [0]
  rhsBatch := [0]
  wf := dot_S64x2048x256_S64x256x2_S64x2048x2_2_1_1_2_0_0_wf
def dot_S64x2048x2_S64x256x2_S64x2048x256_2_2_1_1_0_0 : DotDims S64x2048x2 S64x256x2 S64x2048x256 where
  lhsContracting := [2]
  rhsContracting := [2]
  lhsNonContracting := [1]
  rhsNonContracting := [1]
  lhsBatch := [0]
  rhsBatch := [0]
  wf := dot_S64x2048x2_S64x256x2_S64x2048x256_2_2_1_1_0_0_wf

class Facts : Prop extends Facts₀ where

variable [Facts]
-- ==== Proof.Bits.Entry.lean ====
/-
  What the one region of `Kernel` finds when it is entered, and what a run of the region gives back.

  Before the region the host computes the gathered rows of the three tables and lays the five vectors
  (two columns of the A rows, two columns of the B rows, the bias row) side by side as one [64, 5, 256]
  array; none of these operations writes an argument array, so the region finds the five arguments as
  they were launched (`entry_arg0` … `entry_arg4`). The region stages blocks of the first argument
  (window 0), blocks of the [64, 5, 256] array (window 1, refetched only when the batch tile changes) and
  writes back blocks of the result (window 2). An input window's staging buffer holds its block at every
  grid point, fetched there or not (`found0`, `found1`). Finally any run of the region to the library's
  post leaves the five argument arrays unchanged (`args_kept`).
-/
import proofs.«158795_j58050777972930_2_alg».proof.Proof.Gen.Kernel.Launch
import proofs.«158795_j58050777972930_2_alg».proof.Proof.Gen.Kernel.Points
import proofs.«158795_j58050777972930_2_alg».proof.Proof.Gen.Kernel.Skeleton
import proofs.«158795_j58050777972930_2_alg».proof.Proof.Gen.Kernel.Loops
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the region's entry -/

/-- Core `c`'s buffers when the region is entered: the launch contents after the host operations. -/
abbrev V (c : Dev nD) (b : Ref sig .tc) : Buf (Elt F) ((c : Thread nD τ).loc b) := StableHlo.after hostOps0 (fun b => m (c, b)) b

/-- None of the host operations allocates: each writes its result buffer with a value it computes. -/
theorem hostOps0_fresh : (hostOps0 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host operation writes is found as launched. -/
theorem entry_of_unwritten (c : Dev nD) (b : Ref sig .tc)
    (h : ∀ op ∈ (hostOps0 : List (HloOp τ sig (Elt F))), (Proc.devRef .tc b) ∉ op.writes) :
    V m c b = m ((c : Thread nD τ).loc b) :=
  StableHlo.after_of_forall_not_mem (b := Proc.devRef .tc b) _ _ h

/-- The host operations write none of the five argument arrays. -/
theorem entry_arg0 (c : Dev nD) : V m c main_arg0 = m ((c : Thread nD τ).loc main_arg0) :=
  entry_of_unwritten m c main_arg0 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem entry_arg1 (c : Dev nD) : V m c main_arg1 = m ((c : Thread nD τ).loc main_arg1) :=
  entry_of_unwritten m c main_arg1 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem entry_arg2 (c : Dev nD) : V m c main_arg2 = m ((c : Thread nD τ).loc main_arg2) :=
  entry_of_unwritten m c main_arg2 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem entry_arg3 (c : Dev nD) : V m c main_arg3 = m ((c : Thread nD τ).loc main_arg3) :=
  entry_of_unwritten m c main_arg3 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem entry_arg4 (c : Dev nD) : V m c main_arg4 = m ((c : Thread nD τ).loc main_arg4) :=
  entry_of_unwritten m c main_arg4 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of the first argument's window holds the window's block at every point. -/
theorem found0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of the five vectors' window holds the window's block at every point: where the
    pipeline does not refetch it the batch tile has not changed, and the block is the one already there. -/
theorem found1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run of the region -/

/-- A run to the library's post of a region whose arrays are the entry contents leaves the five
    argument arrays as launched: the first is a staged input, which the pipeline only reads; the other
    four are staged by no window. -/
theorem args_kept (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (entry_arg0 m c))),
      ((h c).2 main_arg1 (Pipeline.mem_restRefs_of main_arg1 (by decide) (by decide))).trans (entry_arg1 m c),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).2 main_arg4 (Pipeline.mem_restRefs_of main_arg4 (by decide) (by decide))).trans (entry_arg4 m c)⟩) h

end Cert.Kernel.Hand

end
-- ==== Proof.Bits.Body.lean ====
/-
  One call of the kernel body of `Kernel` on whole staging buffers.

  The body loads the block of the five vectors once, then goes four times through a loop: trip k loads
  rows 128k … 128k+127 of the block of the first argument, computes from them and from the five vectors
  the same rows of the result, and stores them into the result's buffer. Run from the two input buffers at
  their contents and the result's buffer at anything, it ends with the inputs as they were and the
  result's buffer overwritten by the four trips' pieces; the list of pieces is the witness the run finds.
-/
import proofs.«158795_j58050777972930_2_alg».proof.Proof.Bits.Entry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's four trips store into the result's staging buffer (last trip first), with the
    proof that the body, run on whole staging buffers — the two inputs at `x0`, `x1`, the result's at
    anything —, ends holding the inputs unchanged and the result's buffer with those pieces written. -/
noncomputable def bodyRun (c : Dev nD) (i : grid0.Coords)
    (arg2 : Memref sig .tc .vmem S16x512x256 .f32) (harg2 : arg2.IsWhole)
    (arg3 : Memref sig .tc .vmem S16x5x256 .f32) (harg3 : arg3.IsWhole)
    (arg4 : Memref sig .tc .vmem S16x512x256 .f32) (harg4 : arg4.IsWhole)
    (x0 : Vec F S16x512x256 .f32) (x1 : Vec F S16x5x256 .f32) :
    { L : List (View.Piece (Elt F) S16x512x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__lora_kernel i arg2 harg2 arg3 harg3 arg4 harg4) K } := by
  refine ⟨?_, fun E K => ?run⟩
  case run =>
    simp only [cc0__lora_kernel_eq_skeleton]; unfold cc0__lora_kernel_skel
    unfold owns
    iintro ⟨⟨%f0, %hf0, H0⟩, ⟨%f1, %hf1, H1⟩, ⟨%d2, %f2, -, H2⟩, Hk⟩
    obtain rfl := harg2.eq_unread hf0
    obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.Bits.Frame.lean ====
/-
  The run of `Kernel`'s one region: every weakly fair execution of @main terminates without a fault,
  the five argument arrays end as launched, and the result array ends at what the library computes from
  what each grid point leaves in the result's staging buffer.

  At grid point t the body is called on the current staging buffers. The two input buffers hold the
  blocks of their arrays at t; the four trips' pieces are four slabs of 128 rows each, which tile the
  [16, 512, 256] result block, so what the result's buffer holds after the body does not depend on what
  it held before: it is the pieces read back over anything (`outAt`). Nothing is carried from point to
  point.
-/
import proofs.«158795_j58050777972930_2_alg».proof.Proof.Bits.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers the body is called with -/

/-- One staging buffer of the result's window, through which the block the body leaves is stated
    (the four slabs cover the block, so the choice of buffer does not matter). -/
abbrev VO : View sig .tc .vmem S16x512x256 .f32 := (Memref.whole cc0_stg2_0 : Memref sig .tc .vmem S16x512x256 .f32).view
/-- Each window's current staging buffer at point `t`, and that it is a whole buffer. -/
abbrev ms0 (t : Fin cfg0.N) : Memref sig .tc .vmem S16x512x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x5x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x512x256 .f32 := win0_2.stage (cfg0.slots t 2)
abbrev hs2 (t : Fin cfg0.N) : (ms2 t).IsWhole := hstage0_2 ((cfg0.slots t 2).cast nbuf0_2)

/-! ## What one call of the body leaves in the result's buffer -/

/-- The four trips' pieces are the four slabs of 128 rows: they tile the block, so every index of the
    block lies in one of them. -/
theorem pieces_cover (c : Dev nD) (i : grid0.Coords)
    (arg2 : Memref sig .tc .vmem S16x512x256 .f32) (harg2 : arg2.IsWhole)
    (arg3 : Memref sig .tc .vmem S16x5x256 .f32) (harg3 : arg3.IsWhole)
    (arg4 : Memref sig .tc .vmem S16x512x256 .f32) (harg4 : arg4.IsWhole)
    (x0 : Vec F S16x512x256 .f32) (x1 : Vec F S16x5x256 .f32) (y : S16x512x256.Idx) :
    ∃ pc ∈ (bodyRun c i arg2 harg2 arg3 harg3 arg4 harg4 x0 x1).1, y ∈ pc.1.set :=
  View.cover_of_tiledL (bodyRun c i arg2 harg2 arg3 harg3 arg4 harg4 x0 x1).1 S16x128x256.size (by sl_kernel_rfl) y

/-- The block one call of the body leaves: its pieces read back over anything. -/
def bodyOut (c : Dev nD) (i : grid0.Coords)
    (arg2 : Memref sig .tc .vmem S16x512x256 .f32) (harg2 : arg2.IsWhole)
    (arg3 : Memref sig .tc .vmem S16x5x256 .f32) (harg3 : arg3.IsWhole)
    (arg4 : Memref sig .tc .vmem S16x512x256 .f32) (harg4 : arg4.IsWhole)
    (x0 : Vec F S16x512x256 .f32) (x1 : Vec F S16x5x256 .f32) : Vec F S16x512x256 .f32 :=
  VO.read (Elt F) (VO.writes (Elt F) VO.junk (bodyRun c i arg2 harg2 arg3 harg3 arg4 harg4 x0 x1).1)

/-- The block the body leaves at grid point `t`: the call's block at the point's staging buffers and
    the two input blocks there. -/
def outAt (c : Dev nD) (t : Fin cfg0.N) : Vec F S16x512x256 .f32 :=
  bodyOut c (grid0.coords t) (ms0 t) (hs0 t) (ms1 t) (hs1 t) (ms2 t) (hs2 t) (iblk m c 0 t) (iblk m c 1 t)

/-! ## The region's proof data -/

/-- The arrays as the region finds them; after the body at point `t` each input buffer still at its
    block and the result's buffer at `outAt`; the invariant is only what the body may use and need not
    describe; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]

/-- Each input's current staging buffer holds its block at every point. -/
theorem before_0 (c : Dev nD) (t : Fin cfg0.N) (d) : (dats m 0 c).before 0 t d = iblk m c 0 t :=
  found0 m (dats m 0 c) (A_eq m c 0) (after_0 m c) t d
theorem before_1 (c : Dev nD) (t : Fin cfg0.N) (d) : (dats m 0 c).before 1 t d = iblk m c 1 t :=
  found1 m (dats m 0 c) (A_eq m c 1) (after_1 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

/-- The body at any point: the inputs' buffers hold their blocks, so the call's run applies; the
    invariant passes through unread; the slabs cover the block, so the result's buffer reads `outAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  unfold outAt
  unfold bodyOut
  iintro ⟨HΦ, Ho, ⟨%d0, H0⟩, ⟨%d1, H1⟩, ⟨%d2, H2⟩⟩
  iapply ((bodyRun c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (pieces_cover c _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final
    state has each array of the pipeline at what the library computes from the proof data and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  args_kept m ρ (dats m) (A_eq m) (run_main m ρ)

end Cert.Kernel.Hand

end
-- ==== Proof.Ideal.Entry.lean ====
/-
  What the one region of `KernelIdeal` finds when it is entered, and what a run of the region gives back.

  Before the region the host computes the gathered rows of the three tables and lays the five vectors
  (two columns of the A rows, two columns of the B rows, the bias row) side by side as one [64, 5, 256]
  array; none of these operations writes an argument array, so the region finds the five arguments as
  they were launched (`entry_arg0` … `entry_arg4`). The region stages blocks of the first argument
  (window 0), blocks of the [64, 5, 256] array (window 1, refetched only when the batch tile changes) and
  writes back blocks of the result (window 2). An input window's staging buffer holds its block at every
  grid point, fetched there or not (`found0`, `found1`). Finally any run of the region to the library's
  post leaves the five argument arrays unchanged (`args_kept`).
-/
import proofs.«158795_j58050777972930_2_alg».proof.Proof.Gen.KernelIdeal.Launch
import proofs.«158795_j58050777972930_2_alg».proof.Proof.Gen.KernelIdeal.Points
import proofs.«158795_j58050777972930_2_alg».proof.Proof.Gen.KernelIdeal.Skeleton
import proofs.«158795_j58050777972930_2_alg».proof.Proof.Gen.KernelIdeal.Loops
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the region's entry -/

/-- Core `c`'s buffers when the region is entered: the launch contents after the host operations. -/
abbrev V (c : Dev nD) (b : Ref sig .tc) : Buf (Elt F) ((c : Thread nD τ).loc b) := StableHlo.after hostOps0 (fun b => m (c, b)) b

/-- None of the host operations allocates: each writes its result buffer with a value it computes. -/
theorem hostOps0_fresh : (hostOps0 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host operation writes is found as launched. -/
theorem entry_of_unwritten (c : Dev nD) (b : Ref sig .tc)
    (h : ∀ op ∈ (hostOps0 : List (HloOp τ sig (Elt F))), (Proc.devRef .tc b) ∉ op.writes) :
    V m c b = m ((c : Thread nD τ).loc b) :=
  StableHlo.after_of_forall_not_mem (b := Proc.devRef .tc b) _ _ h

/-- The host operations write none of the five argument arrays. -/
theorem entry_arg0 (c : Dev nD) : V m c main_arg0 = m ((c : Thread nD τ).loc main_arg0) :=
  entry_of_unwritten m c main_arg0 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem entry_arg1 (c : Dev nD) : V m c main_arg1 = m ((c : Thread nD τ).loc main_arg1) :=
  entry_of_unwritten m c main_arg1 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem entry_arg2 (c : Dev nD) : V m c main_arg2 = m ((c : Thread nD τ).loc main_arg2) :=
  entry_of_unwritten m c main_arg2 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem entry_arg3 (c : Dev nD) : V m c main_arg3 = m ((c : Thread nD τ).loc main_arg3) :=
  entry_of_unwritten m c main_arg3 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem entry_arg4 (c : Dev nD) : V m c main_arg4 = m ((c : Thread nD τ).loc main_arg4) :=
  entry_of_unwritten m c main_arg4 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of the first argument's window holds the window's block at every point. -/
theorem found0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of the five vectors' window holds the window's block at every point: where the
    pipeline does not refetch it the batch tile has not changed, and the block is the one already there. -/
theorem found1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run of the region -/

/-- A run to the library's post of a region whose arrays are the entry contents leaves the five
    argument arrays as launched: the first is a staged input, which the pipeline only reads; the other
    four are staged by no window. -/
theorem args_kept (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (entry_arg0 m c))),
      ((h c).2 main_arg1 (Pipeline.mem_restRefs_of main_arg1 (by decide) (by decide))).trans (entry_arg1 m c),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).2 main_arg4 (Pipeline.mem_restRefs_of main_arg4 (by decide) (by decide))).trans (entry_arg4 m c)⟩) h

end Cert.KernelIdeal.Hand

end
-- ==== Proof.Ideal.Body.lean ====
/-
  One call of the kernel body of `KernelIdeal` on whole staging buffers.

  The body loads the block of the five vectors once, then goes four times through a loop: trip k loads
  rows 128k … 128k+127 of the block of the first argument, computes from them and from the five vectors
  the same rows of the result, and stores them into the result's buffer. Run from the two input buffers at
  their contents and the result's buffer at anything, it ends with the inputs as they were and the
  result's buffer overwritten by the four trips' pieces; the list of pieces is the witness the run finds.
-/
import proofs.«158795_j58050777972930_2_alg».proof.Proof.Ideal.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's four trips store into the result's staging buffer (last trip first), with the
    proof that the body, run on whole staging buffers — the two inputs at `x0`, `x1`, the result's at
    anything —, ends holding the inputs unchanged and the result's buffer with those pieces written. -/
noncomputable def bodyRun (c : Dev nD) (i : grid0.Coords)
    (arg2 : Memref sig .tc .vmem S16x512x256 .f32) (harg2 : arg2.IsWhole)
    (arg3 : Memref sig .tc .vmem S16x5x256 .f32) (harg3 : arg3.IsWhole)
    (arg4 : Memref sig .tc .vmem S16x512x256 .f32) (harg4 : arg4.IsWhole)
    (x0 : Vec F S16x512x256 .f32) (x1 : Vec F S16x5x256 .f32) :
    { L : List (View.Piece (Elt F) S16x512x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__lora_kernel i arg2 harg2 arg3 harg3 arg4 harg4) K } := by
  refine ⟨?_, fun E K => ?run⟩
  case run =>
    simp only [cc0__lora_kernel_eq_skeleton]; unfold cc0__lora_kernel_skel
    unfold owns
    iintro ⟨⟨%f0, %hf0, H0⟩, ⟨%f1, %hf1, H1⟩, ⟨%d2, %f2, -, H2⟩, Hk⟩
    obtain rfl := harg2.eq_unread hf0
    obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.Ideal.Frame.lean ====
/-
  The run of `KernelIdeal`'s one region: every weakly fair execution of @main terminates without a fault,
  the five argument arrays end as launched, and the result array ends at what the library computes from
  what each grid point leaves in the result's staging buffer.

  At grid point t the body is called on the current staging buffers. The two input buffers hold the
  blocks of their arrays at t; the four trips' pieces are four slabs of 128 rows each, which tile the
  [16, 512, 256] result block, so what the result's buffer holds after the body does not depend on what
  it held before: it is the pieces read back over anything (`outAt`). Nothing is carried from point to
  point.
-/
import proofs.«158795_j58050777972930_2_alg».proof.Proof.Ideal.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers the body is called with -/

/-- One staging buffer of the result's window, through which the block the body leaves is stated
    (the four slabs cover the block, so the choice of buffer does not matter). -/
abbrev VO : View sig .tc .vmem S16x512x256 .f32 := (Memref.whole cc0_stg2_0 : Memref sig .tc .vmem S16x512x256 .f32).view
/-- Each window's current staging buffer at point `t`, and that it is a whole buffer. -/
abbrev ms0 (t : Fin cfg0.N) : Memref sig .tc .vmem S16x512x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x5x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x512x256 .f32 := win0_2.stage (cfg0.slots t 2)
abbrev hs2 (t : Fin cfg0.N) : (ms2 t).IsWhole := hstage0_2 ((cfg0.slots t 2).cast nbuf0_2)

/-! ## What one call of the body leaves in the result's buffer -/

/-- The four trips' pieces are the four slabs of 128 rows: they tile the block, so every index of the
    block lies in one of them. -/
theorem pieces_cover (c : Dev nD) (i : grid0.Coords)
    (arg2 : Memref sig .tc .vmem S16x512x256 .f32) (harg2 : arg2.IsWhole)
    (arg3 : Memref sig .tc .vmem S16x5x256 .f32) (harg3 : arg3.IsWhole)
    (arg4 : Memref sig .tc .vmem S16x512x256 .f32) (harg4 : arg4.IsWhole)
    (x0 : Vec F S16x512x256 .f32) (x1 : Vec F S16x5x256 .f32) (y : S16x512x256.Idx) :
    ∃ pc ∈ (bodyRun c i arg2 harg2 arg3 harg3 arg4 harg4 x0 x1).1, y ∈ pc.1.set :=
  View.cover_of_tiledL (bodyRun c i arg2 harg2 arg3 harg3 arg4 harg4 x0 x1).1 S16x128x256.size (by sl_kernel_rfl) y

/-- The block one call of the body leaves: its pieces read back over anything. -/
def bodyOut (c : Dev nD) (i : grid0.Coords)
    (arg2 : Memref sig .tc .vmem S16x512x256 .f32) (harg2 : arg2.IsWhole)
    (arg3 : Memref sig .tc .vmem S16x5x256 .f32) (harg3 : arg3.IsWhole)
    (arg4 : Memref sig .tc .vmem S16x512x256 .f32) (harg4 : arg4.IsWhole)
    (x0 : Vec F S16x512x256 .f32) (x1 : Vec F S16x5x256 .f32) : Vec F S16x512x256 .f32 :=
  VO.read (Elt F) (VO.writes (Elt F) VO.junk (bodyRun c i arg2 harg2 arg3 harg3 arg4 harg4 x0 x1).1)

/-- The block the body leaves at grid point `t`: the call's block at the point's staging buffers and
    the two input blocks there. -/
def outAt (c : Dev nD) (t : Fin cfg0.N) : Vec F S16x512x256 .f32 :=
  bodyOut c (grid0.coords t) (ms0 t) (hs0 t) (ms1 t) (hs1 t) (ms2 t) (hs2 t) (iblk m c 0 t) (iblk m c 1 t)

/-! ## The region's proof data -/

/-- The arrays as the region finds them; after the body at point `t` each input buffer still at its
    block and the result's buffer at `outAt`; the invariant is only what the body may use and need not
    describe; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]

/-- Each input's current staging buffer holds its block at every point. -/
theorem before_0 (c : Dev nD) (t : Fin cfg0.N) (d) : (dats m 0 c).before 0 t d = iblk m c 0 t :=
  found0 m (dats m 0 c) (A_eq m c 0) (after_0 m c) t d
theorem before_1 (c : Dev nD) (t : Fin cfg0.N) (d) : (dats m 0 c).before 1 t d = iblk m c 1 t :=
  found1 m (dats m 0 c) (A_eq m c 1) (after_1 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

/-- The body at any point: the inputs' buffers hold their blocks, so the call's run applies; the
    invariant passes through unread; the slabs cover the block, so the result's buffer reads `outAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  unfold outAt
  unfold bodyOut
  iintro ⟨HΦ, Ho, ⟨%d0, H0⟩, ⟨%d1, H1⟩, ⟨%d2, H2⟩⟩
  iapply ((bodyRun c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (pieces_cover c _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final
    state has each array of the pipeline at what the library computes from the proof data and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  args_kept m ρ (dats m) (A_eq m) (run_main m ρ)

end Cert.KernelIdeal.Hand

end
-- ==== Proof.LibLayout.lean ====
/-
  Shape casts that add or drop a UNIT axis somewhere other than the front, and broadcasts of a unit axis, read at an
  index given by coordinates: the forms a reduction with kept dimensions meets ([a] ↔ [a,1], [a,b] ↔ [a,1,b],
  [a,b] → [a,b,1], [a,b,c] → [a,b,c,1], [a,b] → [a,1,1,b]; [a,1] → [a,b], [a,b,1] → [a,b,c], [a,b,c,1] → [a,b,c,d],
  [a,1,1,d] → [a,b,c,d]). A shape cast keeps the row-major position, and a unit axis contributes nothing to it; a
  broadcast reads coordinate 0 on the operand's unit axes and the result's coordinate elsewhere.
-/
import Idealize.ShloMosaic.Lib.Pipeline.Value
import Idealize.ShloMosaic.Lib.ValueIdx

namespace Cert.LibLayout

open Idealize.ShloMosaic Idealize.ShloMosaic.ValueIdx

variable {α : Type}

/-! ## Shape casts -/

/-- `[a] → [a,1]`: at (p, u) the operand at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- `[a,b] → [a,1,b]`: at (p, u, q) the operand at (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_two, Shape.rowMajor_val_three]
    show p.val * b + q.val = (p.val * 1 + u.val) * b + q.val
    rw [hu, Nat.mul_one, Nat.add_zero])

/-- `[a,1,b] → [a,b]`: at (p, q) the operand at (p, 0, q). -/
theorem shapeCast_a1b_ab_apply {a b : ℕ} (x : (⟨3, ![a, 1, b]⟩ : Shape).Idx → α)
    (h : (⟨3, ![a, 1, b]⟩ : Shape).ShapeCasts ⟨2, ![a, b]⟩) (p : Fin a) (q : Fin b) :
    shapeCast ⟨2, ![a, b]⟩ x h (ix2 p q) = x (ix3 p (0 : Fin 1) q) :=
  shapeCast_apply x h _ _ (by
    rw [Shape.rowMajor_val_three, Shape.rowMajor_val_two]
    show (p.val * 1 + 0) * b + q.val = p.val * b + q.val
    rw [Nat.mul_one, Nat.add_zero])

/-- `[a,b] → [a,b,1]`: at (p, q, u) the operand at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- `[a,b,c] → [a,b,c,1]`: at (p, q, r, u) the operand at (p, q, r). -/
theorem shapeCast_abc_abc1_apply {a b c : ℕ} (x : (⟨3, ![a, b, c]⟩ : Shape).Idx → α)
    (h : (⟨3, ![a, b, c]⟩ : Shape).ShapeCasts ⟨4, ![a, b, c, 1]⟩) (p : Fin a) (q : Fin b) (r : Fin c) (u : Fin 1) :
    shapeCast ⟨4, ![a, b, c, 1]⟩ x h (ix4 p q r u) = x (ix3 p q r) :=
  shapeCast_apply x h _ _ (by
    have hu : u.val = 0 := by omega
    rw [Shape.rowMajor_val_three, Shape.rowMajor_val_four]
    show (p.val * b + q.val) * c + r.val = ((p.val * b + q.val) * c + r.val) * 1 + u.val
    rw [hu, Nat.mul_one, Nat.add_zero])

/-- `[a,b] → [a,1,1,b]`: at (p, u, v, q) the operand at (p, q). -/
theorem shapeCast_ab_a11b_apply {a b : ℕ} (x : (⟨2, ![a, b]⟩ : Shape).Idx → α)
    (h : (⟨2, ![a, b]⟩ : Shape).ShapeCasts ⟨4, ![a, 1, 1, b]⟩) (p : Fin a) (u v : Fin 1) (q : Fin b) :
    shapeCast ⟨4, ![a, 1, 1, b]⟩ x h (ix4 p u v q) = x (ix2 p q) :=
  shapeCast_apply x h _ _ (by
    have hu : u.val = 0 := by omega
    have hv : v.val = 0 := by omega
    rw [Shape.rowMajor_val_two, Shape.rowMajor_val_four]
    show p.val * b + q.val = ((p.val * 1 + u.val) * 1 + v.val) * b + q.val
    simp only [hu, hv, Nat.mul_one, Nat.add_zero])

/-! ## Broadcasts of unit axes -/

/-- `[a,1] → [a,b]`: at (p, q) the operand's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- `[a,b,1] → [a,b,c]`: at (p, q, r) the operand's entry of (p, q). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- `[a,b,c,1] → [a,b,c,d]`: at (p, q, r, s) the operand's entry of (p, q, r). -/
theorem broadcastTo_abc1_abcd_apply {a b c d : ℕ} (v : (⟨4, ![a, b, c, 1]⟩ : Shape).Idx → α)
    (h : (⟨4, ![a, b, c, 1]⟩ : Shape).Broadcasts ⟨4, ![a, b, c, d]⟩) (p : Fin a) (q : Fin b) (r : Fin c) (s : Fin d) :
    broadcastTo ⟨4, ![a, b, c, d]⟩ v h (ix4 p q r s) = v (ix4 p q r (0 : Fin 1)) := by
  refine broadcastTo_apply v h (ix4 p q r s) (ix4 p q r (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show r.val = if c = 1 then 0 else r.val
    split
    · have := r.isLt; omega
    · rfl
  | ⟨3, _⟩ => rfl

/-- `[a,1,1,d] → [a,b,c,d]`: at (p, q, r, s) the operand's entry of (p, s). -/
theorem broadcastTo_a11d_abcd_apply {a b c d : ℕ} (v : (⟨4, ![a, 1, 1, d]⟩ : Shape).Idx → α)
    (h : (⟨4, ![a, 1, 1, d]⟩ : Shape).Broadcasts ⟨4, ![a, b, c, d]⟩) (p : Fin a) (q : Fin b) (r : Fin c) (s : Fin d) :
    broadcastTo ⟨4, ![a, b, c, d]⟩ v h (ix4 p q r s) = v (ix4 p (0 : Fin 1) (0 : Fin 1) s) := by
  refine broadcastTo_apply v h (ix4 p q r s) (ix4 p (0 : Fin 1) (0 : Fin 1) s) fun ax => ?_
  match ax with
  | ⟨0, _⟩ =>
    show p.val = if a = 1 then 0 else p.val
    split
    · have := p.isLt; omega
    · rfl
  | ⟨1, _⟩ => rfl
  | ⟨2, _⟩ => rfl
  | ⟨3, _⟩ =>
    show s.val = if d = 1 then 0 else s.val
    split
    · have := s.isLt; omega
    · rfl

end Cert.LibLayout
-- ==== Proof.LibDepthAxis.lean ====
/-
  Rank-3 arrays [a, b, e] read along their LAST axis, by coordinates. An array with a unit middle axis copied along
  it ([a,1,e] → [a,b,e]) reads at (p, q, k) its entry (p, 0, k); one with a unit leading axis copied along it
  ([1,b,e] → [a,b,e]) reads its entry (0, q, k). The index (p, q) of the reduced array with the coordinate k put back
  on axis 2 is (p, q, k); so, over the extended reals, the vector unit's maximum over axis 2 and the host's
  one-operand reduce with a maximum body over axis 2 are, at (p, q), the fold of `max` from the initial value over
  k : Fin e of the entry (p, q, k). Generic in a, b and e.
-/
import Idealize.ShloMosaic.Lib.Pipeline.Value
import Idealize.ShloMosaic.Lib.ValueIdx
import Idealize.ShloMosaic.PureOps.Ideal.Laws
import Idealize.ShloMosaic.PureOps.Reduce

noncomputable section

namespace Cert.LibDepthAxis

open Idealize.ShloMosaic Idealize.ShloMosaic.ValueIdx

variable {a b e : ℕ}

/-! ## Copies along a unit axis -/

section Copies
variable {α : Type}

/-- `[a,1,e] → [a,b,e]`: at (p, q, k) the operand's entry (p, 0, k). -/
theorem broadcastTo_a1e_abe_apply (v : (⟨3, ![a, 1, e]⟩ : Shape).Idx → α)
    (h : (⟨3, ![a, 1, e]⟩ : Shape).Broadcasts ⟨3, ![a, b, e]⟩) (p : Fin a) (q : Fin b) (k : Fin e) :
    broadcastTo ⟨3, ![a, b, e]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if e = 1 then 0 else k.val
    split
    · have := k.isLt; omega
    · rfl

/-- `[1,b,e] → [a,b,e]`: at (p, q, k) the operand's entry (0, q, k). -/
theorem broadcastTo_1be_abe_apply (v : (⟨3, ![1, b, e]⟩ : Shape).Idx → α)
    (h : (⟨3, ![1, b, e]⟩ : Shape).Broadcasts ⟨3, ![a, b, e]⟩) (p : Fin a) (q : Fin b) (k : Fin e) :
    broadcastTo ⟨3, ![a, b, e]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if e = 1 then 0 else k.val
    split
    · have := k.isLt; omega
    · rfl

end Copies

/-! ## The maximum over the last axis -/

/-- The reduced index (p, q) with the coordinate k put back on axis 2 is (p, q, k). -/
theorem lift_last (h : Shape.Reduces ⟨3, ![a, b, e]⟩ [2] ⟨2, ![a, b]⟩) (p : Fin a) (q : Fin b) (k : Fin e) :
    h.lift (ix2 p q) k = ix3 p q k := by
  funext d
  apply Fin.ext
  match d with
  | ⟨0, _⟩ => rfl
  | ⟨1, _⟩ => rfl
  | ⟨2, _⟩ => rfl

/-- The vector unit's maximum over axis 2, at (p, q): the fold of `max` from the accumulator's value over the
    entries (p, q, k). -/
theorem multiReduction_max_last {φ : FTy} (x : FVec Ideal ⟨3, ![a, b, e]⟩ φ) (acc : BitVec φ.bits)
    (h : Shape.Reduces ⟨3, ![a, b, e]⟩ [2] ⟨2, ![a, b]⟩) (hφ : FKind.Formats φ)
    (hacc : acc = FKind.maximumf.neutral φ hφ) (p : Fin a) (q : Fin b) :
    multiReduction .maximumf [2] ⟨2, ![a, b]⟩ x acc h hφ hacc (ix2 p q)
      = (Finset.univ : Finset (Fin e)).fold max (Ideal.ofBits φ acc) fun k => x (ix3 p q k) := by
  refine (Ideal.multiReduction_maximumf_single x acc h hφ hacc (ix2 p q)).trans ?_
  refine congrArg (Finset.fold max _ · Finset.univ) (funext fun k => ?_)
  exact congrArg x (lift_last h p q k)

/-- The host's reduce with a maximum body over axis 2, at (p, q): the fold of `max` from the initial value over the
    entries (p, q, k). -/
theorem hostReduce_max_last {φ : FTy} {u : Shape} (x : FVec Ideal ⟨3, ![a, b, e]⟩ φ) (init : u.Idx → EReal)
    (h' : Shape.ReducesTo ⟨3, ![a, b, e]⟩ [2] ⟨2, ![a, b]⟩) (h : Shape.Reduces ⟨3, ![a, b, e]⟩ [2] ⟨2, ![a, b]⟩)
    (hu : 0 < u.numel) (p : Fin a) (q : Fin b) :
    Host.reduce (FloatOps.maximumf (F := Ideal) (φ := φ)) x init h' hu (ix2 p q)
      = (Finset.univ : Finset (Fin e)).fold max (init (Shape.Idx.first hu)) fun k => x (ix3 p q k) := by
  refine (Host.reduce_eq_fold_single (FloatOps.maximumf (F := Ideal) (φ := φ)) x init h' h hu (ix2 p q)).trans ?_
  refine congrArg (Finset.fold max _ · Finset.univ) (funext fun k => ?_)
  exact congrArg x (lift_last h p q k)

end Cert.LibDepthAxis

end
-- ==== Proof.Ideal.Payload.lean ====
/-
  The value one trip of the body stores, entry by entry, over the extended reals.

  From the block `v0` of the five vectors ([16, 5, 256]) and a slab `v21` of 128 rows of the latent block
  ([16, 128, 256]) the trip forms: the five vectors as [16, 1, 256] rows; the two projections of every
  latent row on the first two vectors (a product along the last axis summed over it, kept as a
  [16, 128, 1] column); and bias + projection0 · b0 + projection1 · b1, every vector copied along the
  128 rows and every projection along the 256 columns.
-/
import proofs.«158795_j58050777972930_2_alg».proof.Proof.Gen.KernelIdeal.Skeleton
import proofs.«158795_j58050777972930_2_alg».proof.Proof.LibLayout
import proofs.«158795_j58050777972930_2_alg».proof.Proof.LibDepthAxis
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

/-- Vector `j` of the block, cut out as a [16, 1, 256] row (through a [16, 256] matrix and back):
    at (b, 0, k) it is the block's entry (b, j, k). -/
theorem row_apply (o : Nat) (j : Fin 5) (hj : j.val = o) (v1 : FVec Ideal S16x5x256 .f32)
    (hs : S16x5x256.Slices ![0, o, 0] S16x1x256) (h1 : S16x1x256.ShapeCasts S16x256) (h2 : S16x256.ShapeCasts S16x1x256)
    (b : Fin 16) (u : Fin 1) (k : Fin 256) :
    shapeCast S16x1x256 (shapeCast S16x256 (extractStridedSlice S16x1x256 ![0, o, 0] v1 hs) h1) h2 (ix3 b u k)
      = v1 (ix3 b j k) :=
  (Cert.LibLayout.shapeCast_ab_a1b_apply _ h2 b u k).trans
    ((Cert.LibLayout.shapeCast_a1b_ab_apply _ h1 b k).trans
      (slice3_axis1_apply o v1 hs b (0 : Fin 1) k j (by rw [hj]; rfl)))

/-- A [16, 1, 256] row copied down the 128 rows of a slab: at (b, r, k) the row's entry (b, 0, k). -/
theorem down_apply (v : FVec Ideal S16x1x256 .f32) (h : S16x1x256.Broadcasts S16x128x256) (b : Fin 16) (r : Fin 128) (k : Fin 256) :
    broadcastTo S16x128x256 v h (ix3 b r k) = v (ix3 b (0 : Fin 1) k) :=
  Cert.LibDepthAxis.broadcastTo_a1e_abe_apply v h b r k

/-- The sum along the last axis of a slab, kept as a [16, 128, 1] column and copied along the 256
    columns: at (b, r, d) the sum over k of the slab's entries (b, r, k). -/
theorem along_apply (x : FVec Ideal S16x128x256 .f32) (hr : S16x128x256.Reduces [2] S16x128)
    (hφ : FKind.Formats .f32) (hacc : (0x00000000#32 : BitVec 32) = FKind.add.neutral .f32 hφ)
    (hc : S16x128.ShapeCasts S16x128x1) (hb : S16x128x1.Broadcasts S16x128x256) (b : Fin 16) (r : Fin 128) (d : Fin 256) :
    broadcastTo S16x128x256 (shapeCast S16x128x1 (multiReduction .add [2] S16x128 x 0x00000000#32 hr hφ hacc) hc) hb (ix3 b r d)
      = ∑ k : Fin 256, x (ix3 b r k) :=
  (Cert.LibLayout.broadcastTo_ab1_abc_apply _ hb b r d).trans
    ((Cert.LibLayout.shapeCast_ab_ab1_apply _ hc b r (0 : Fin 1)).trans
      ((Ideal.multiReduction_add_single x 0x00000000#32 hr hφ hacc (ix2 b r)).trans
        (Finset.sum_congr rfl fun k _ => congrArg x (Cert.LibDepthAxis.lift_last hr b r k))))

/-- The stored value at entry (b, r, d) of the slab. -/
theorem pay_apply (v0 : Vec Ideal S16x5x256 .f32) (v21 : Vec Ideal S16x128x256 .f32) (b : Fin 16) (r : Fin 128) (d : Fin 256) :
    k0_pay1 (F := Ideal) v0 v21 (ix3 b r d)
      = (v0 (ix3 b (4 : Fin 5) d) + (∑ k : Fin 256, v21 (ix3 b r k) * v0 (ix3 b (0 : Fin 5) k)) * v0 (ix3 b (2 : Fin 5) d))
        + (∑ k : Fin 256, v21 (ix3 b r k) * v0 (ix3 b (1 : Fin 5) k)) * v0 (ix3 b (3 : Fin 5) d) := by
  unfold k0_pay1
  simp only [addf_apply, mulf_apply, down_apply, row_apply 2 2 rfl, row_apply 3 3 rfl, row_apply 4 4 rfl, shapeCast_self]
  refine congrArg₂ (· + ·) (congrArg₂ (· + ·) rfl (congrArg₂ (· * ·) ?_ rfl)) (congrArg₂ (· * ·) ?_ rfl)
  · refine (along_apply _ _ _ _ _ _ b r d).trans (Finset.sum_congr rfl fun k _ => ?_)
    exact congrArg₂ (· * ·) rfl ((down_apply _ _ b r k).trans (row_apply 0 0 rfl v0 _ _ _ b 0 k))
  · refine (along_apply _ _ _ _ _ _ b r d).trans (Finset.sum_congr rfl fun k _ => ?_)
    exact congrArg₂ (· * ·) rfl ((down_apply _ _ b r k).trans (row_apply 1 1 rfl v0 _ _ _ b 0 k))

end Cert.KernelIdeal.Hand

end
-- ==== Proof.Ideal.Block.lean ====
/-
  The block one call of the body leaves in the result's staging buffer, as one function of the two
  input blocks, over the extended reals.

  Trip k of the body's loop stores one piece: rows 128k … 128k+127 of the block, computed from the same
  rows of the latent block and from the five vectors. At row r of the slab, i.e. row 128k + r of the
  block, and column d the stored value is bias(b, d) + <x(b, row, ·), a0(b, ·)> · b0(b, d)
  + <x(b, row, ·), a1(b, ·)> · b1(b, d): the same function `blockFn` of the block's own coordinates for
  every trip. The four slabs cover the block, so the block the call leaves is `blockFn` everywhere.
-/
import proofs.«158795_j58050777972930_2_alg».proof.Proof.Ideal.Frame
import proofs.«158795_j58050777972930_2_alg».proof.Proof.Ideal.Payload

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

/-- Entry (b, r, d) of the block one call leaves, from the latent block `x0` and the block `x1` of the
    five vectors. -/
def blockAt (x0 : Vec Ideal S16x512x256 .f32) (x1 : Vec Ideal S16x5x256 .f32) (b : Fin 16) (r : Fin 512) (d : Fin 256) : EReal :=
  (x1 (ix3 b (4 : Fin 5) d) + (∑ k : Fin 256, x0 (ix3 b r k) * x1 (ix3 b (0 : Fin 5) k)) * x1 (ix3 b (2 : Fin 5) d))
    + (∑ k : Fin 256, x0 (ix3 b r k) * x1 (ix3 b (1 : Fin 5) k)) * x1 (ix3 b (3 : Fin 5) d)

/-- The whole block. -/
def blockFn (x0 : Vec Ideal S16x512x256 .f32) (x1 : Vec Ideal S16x5x256 .f32) : S16x512x256.Idx → EReal :=
  fun y => blockAt x0 x1 (y 0) (y 1) (y 2)

theorem zero_offsets : (![0, 0, 0] : Fin 3 → Nat) = fun _ => 0 := funext fun a => by fin_cases a <;> rfl

/-! ## One trip's piece -/

/-- Trip `k` stores one piece: the slab of 128 rows at the trip's offsets, holding the trip's value of the
    five vectors and the slab of the latent block it loaded. -/
theorem trip_piece (𝒱 : Variants) (c : Dev nD) (bd : Option 𝒱.V) (i : grid0.Coords)
    (arg2 : Memref sig .tc .vmem S16x512x256 .f32) (harg2 : arg2.IsWhole)
    (arg3 : Memref sig .tc .vmem S16x5x256 .f32) (harg3 : arg3.IsWhole)
    (arg4 : Memref sig .tc .vmem S16x512x256 .f32) (harg4 : arg4.IsWhole)
    (v0 : Vec Ideal S16x5x256 .f32) (X : BufTy.Contents (Elt Ideal) arg2.view.ty) (k : Fin k0_t1_loop.trips) :
    tripL_k0_t1 (F := Ideal) 𝒱 c bd i arg2 harg2 arg3 harg3 arg4 harg4 v0 X k
      = [⟨Rect.unit (s := S16x512x256) (k0_off1 k) S16x128x256.size (k0_off1_inb k),
          k0_pay1 v0 (View.readAt (Elt Ideal) arg2.view (Rect.unit (s := S16x512x256) (k0_off1 k) S16x128x256.size (k0_off1_inb k)).toLoadRect X)⟩] := by
  sl_kernel_rfl

/-- The row of the block that row `r` of trip `k`'s slab is. -/
def rowOf (k : Fin k0_t1_loop.trips) (r : Fin 128) : Fin 512 :=
  ⟨(k0_off1 k) 1 + r.val, by
    have h : (k0_off1 k) 1 + 128 ≤ 512 := k0_off1_inb k 1
    have hr := r.isLt
    omega⟩

/-- Entry (b, r, d) of trip `k`'s slab sits at entry (b, rowOf k r, d) of the block. -/
theorem slab_idx (k : Fin k0_t1_loop.trips) (b : Fin 16) (r : Fin 128) (d : Fin 256) :
    (Rect.unit (s := S16x512x256) (k0_off1 k) S16x128x256.size (k0_off1_inb k)).idx (ix3 b r d) = ix3 b (rowOf k r) d :=
  funext fun a => Fin.ext (by
    match a with
    | ⟨0, _⟩ =>
      show (k0_off1 k) 0 + 1 * b.val = b.val
      rw [k0_off1_eq]; show 0 + 1 * b.val = b.val; omega
    | ⟨1, _⟩ => show (k0_off1 k) 1 + 1 * r.val = (k0_off1 k) 1 + r.val; omega
    | ⟨2, _⟩ =>
      show (k0_off1 k) 2 + 1 * d.val = d.val
      rw [k0_off1_eq]; show 0 + 1 * d.val = d.val; omega)

/-- The piece trip `k` stores agrees with `blockFn` of the two input blocks at every entry of its slab. -/
theorem slab_agrees (k : Fin k0_t1_loop.trips)
    (arg2 : Memref sig .tc .vmem S16x512x256 .f32) (harg2 : arg2.IsWhole)
    (arg3 : Memref sig .tc .vmem S16x5x256 .f32) (harg3 : arg3.IsWhole)
    (x0 : Vec Ideal S16x512x256 .f32) (x1 : Vec Ideal S16x5x256 .f32)
    (x : (Rect.unit (s := S16x512x256) (k0_off1 k) S16x128x256.size (k0_off1_inb k)).shape.Idx) :
    k0_pay1 (F := Ideal)
        (View.readAt (Elt Ideal) arg3.view (Rect.unit (s := S16x5x256) ![0, 0, 0] S16x5x256.size inb_S16x5x256_S16x5x256_0_0_0).toLoadRect (harg3.unread x1))
        (View.readAt (Elt Ideal) arg2.view (Rect.unit (s := S16x512x256) (k0_off1 k) S16x128x256.size (k0_off1_inb k)).toLoadRect (harg2.unread x0)) x
      = blockFn x0 x1 ((Rect.unit (s := S16x512x256) (k0_off1 k) S16x128x256.size (k0_off1_inb k)).emb x) := by
  obtain ⟨b, r, d, rfl⟩ : ∃ (b : Fin 16) (r : Fin 128) (d : Fin 256), x = ix3 b r d := ⟨x 0, x 1, x 2, eq_ix3 x⟩
  have e1 : View.readAt (Elt Ideal) arg3.view (Rect.unit (s := S16x5x256) ![0, 0, 0] S16x5x256.size inb_S16x5x256_S16x5x256_0_0_0).toLoadRect (harg3.unread x1) = x1 := by
    rw [View.readAt_eq_ld, harg3.read_unread]
    exact View.ld_unit_zero (S := S16x5x256) zero_offsets _ x1
  have e0 : ∀ k' : Fin 256, View.readAt (Elt Ideal) arg2.view (Rect.unit (s := S16x512x256) (k0_off1 k) S16x128x256.size (k0_off1_inb k)).toLoadRect (harg2.unread x0) (ix3 b r k')
      = x0 (ix3 b (rowOf k r) k') := fun k' => by
    rw [View.readAt_eq_ld, harg2.read_unread]
    exact congrArg x0 (slab_idx k b r k')
  rw [e1]
  refine (pay_apply x1 _ b r d).trans ?_
  have he : (Rect.unit (s := S16x512x256) (k0_off1 k) S16x128x256.size (k0_off1_inb k)).emb (ix3 b r d) = ix3 b (rowOf k r) d := slab_idx k b r d
  rw [he]
  show _ = blockAt x0 x1 b (rowOf k r) d
  unfold blockAt
  simp only [e0]

/-! ## All the pieces of one call -/

/-- Every piece of the trips before trip `n` is some trip's piece. -/
theorem pieces_from_trips (𝒱 : Variants) (c : Dev nD) (bd : Option 𝒱.V) (i : grid0.Coords)
    (arg2 : Memref sig .tc .vmem S16x512x256 .f32) (harg2 : arg2.IsWhole)
    (arg3 : Memref sig .tc .vmem S16x5x256 .f32) (harg3 : arg3.IsWhole)
    (arg4 : Memref sig .tc .vmem S16x512x256 .f32) (harg4 : arg4.IsWhole)
    (v0 : Vec Ideal S16x5x256 .f32) (X : BufTy.Contents (Elt Ideal) arg2.view.ty) :
    ∀ (n : ℕ) (p : View.Piece (Elt Ideal) S16x512x256 .f32),
      p ∈ pb_k0_t1 (F := Ideal) 𝒱 c bd i arg2 harg2 arg3 harg3 arg4 harg4 v0 X n →
      ∃ k : Fin k0_t1_loop.trips, p ∈ tripL_k0_t1 (F := Ideal) 𝒱 c bd i arg2 harg2 arg3 harg3 arg4 harg4 v0 X k
  | 0, p, h => by rw [pb_k0_t1.eq_1] at h; exact absurd h List.not_mem_nil
  | n + 1, p, h => by
    rw [pb_k0_t1.eq_2] at h
    unfold pb_k0_t1Step at h
    split at h
    · rename_i hn
      rcases List.mem_append.mp h with h | h
      · exact ⟨⟨n, hn⟩, h⟩
      · exact pieces_from_trips 𝒱 c bd i arg2 harg2 arg3 harg3 arg4 harg4 v0 X n p h
    · exact pieces_from_trips 𝒱 c bd i arg2 harg2 arg3 harg3 arg4 harg4 v0 X n p h

/-- Every piece one call stores agrees with `blockFn` of the call's two input blocks. -/
theorem pieces_agree (c : Dev nD) (i : grid0.Coords)
    (arg2 : Memref sig .tc .vmem S16x512x256 .f32) (harg2 : arg2.IsWhole)
    (arg3 : Memref sig .tc .vmem S16x5x256 .f32) (harg3 : arg3.IsWhole)
    (arg4 : Memref sig .tc .vmem S16x512x256 .f32) (harg4 : arg4.IsWhole)
    (x0 : Vec Ideal S16x512x256 .f32) (x1 : Vec Ideal S16x5x256 .f32) :
    ∀ p ∈ (bodyRun (F := Ideal) c i arg2 harg2 arg3 harg3 arg4 harg4 x0 x1).1,
      ∀ x : p.1.shape.Idx, p.2 x = blockFn x0 x1 (p.1.emb x) := by
  intro p hp x
  obtain ⟨k, hk⟩ := pieces_from_trips Variants.none c none i arg2 harg2 arg3 harg3 arg4 harg4 _ _ _ p hp
  rw [trip_piece] at hk
  obtain rfl := List.mem_singleton.mp hk
  exact slab_agrees k arg2 harg2 arg3 harg3 x0 x1 x

/-- The block one call leaves is `blockFn` of its two input blocks. -/
theorem bodyOut_eq (c : Dev nD) (i : grid0.Coords)
    (arg2 : Memref sig .tc .vmem S16x512x256 .f32) (harg2 : arg2.IsWhole)
    (arg3 : Memref sig .tc .vmem S16x5x256 .f32) (harg3 : arg3.IsWhole)
    (arg4 : Memref sig .tc .vmem S16x512x256 .f32) (harg4 : arg4.IsWhole)
    (x0 : Vec Ideal S16x512x256 .f32) (x1 : Vec Ideal S16x5x256 .f32) :
    bodyOut (F := Ideal) c i arg2 harg2 arg3 harg3 arg4 harg4 x0 x1 = blockFn x0 x1 := by
  funext y
  unfold bodyOut
  exact View.read_writes_apply_of_pieces (v := VO) (f := VO.junk) (blockFn x0 x1) _
    (pieces_agree c i arg2 harg2 arg3 harg3 arg4 harg4 x0 x1) y
    (pieces_cover c i arg2 harg2 arg3 harg3 arg4 harg4 x0 x1 y)

end Cert.KernelIdeal.Hand

end
-- ==== Proof.Spec.lean ====
/-
  The function both programs compute, entry by entry, over the extended reals.

  `x` is the [64, 2048, 256] array of latent rows; `v` is a [64, 5, 256] array holding, for each of the
  64 batch entries, five vectors of length 256: the two columns a0, a1 of that entry's low-rank factor
  A, the two columns b0, b1 of its factor B, and its bias row. Entry (b, t, d) of the result is

      (bias(b, d) + <x(b, t, ·), a0(b, ·)> · b0(b, d)) + <x(b, t, ·), a1(b, ·)> · b1(b, d),

  a rank-2 update of the bias: the row x(b, t, ·) is projected on the two columns of A and the two
  projections are laid along the two columns of B.

  The factors are stored interleaved: a [64, 512] array `gA` whose row b holds A(b, k, r) at column
  2k + r (and likewise `gB`), and the bias as a [64, 256] array `gC`. `pack` lays the five vectors out
  of them; `entry_pack` rewrites an entry over the packed vectors as the product of x with A followed by
  the product with the transpose of B, plus the bias — a sum over the two ranks of
  <x(b, t, ·), A(b, ·, r)> · B(b, d, r). The two differ only in the order and grouping of three
  summands, and addition of extended reals is commutative and associative.
-/
import Idealize.ShloMosaic.PureOps.Ideal
import Idealize.ShloMosaic.Lib.ValueIdx

noncomputable section

namespace Cert.Spec

open Idealize.ShloMosaic Idealize.ShloMosaic.ValueIdx

/-- The projection of row (b, t) of `x` on vector `j` of batch entry `b`. -/
def proj (x : (⟨3, ![64, 2048, 256]⟩ : Shape).Idx → EReal) (v : (⟨3, ![64, 5, 256]⟩ : Shape).Idx → EReal)
    (b : Fin 64) (t : Fin 2048) (j : Fin 5) : EReal :=
  ∑ k : Fin 256, x (ix3 b t k) * v (ix3 b j k)

/-- Entry (b, t, d) of the result: the bias plus the two projections along the two columns of B. -/
def entry (x : (⟨3, ![64, 2048, 256]⟩ : Shape).Idx → EReal) (v : (⟨3, ![64, 5, 256]⟩ : Shape).Idx → EReal)
    (b : Fin 64) (t : Fin 2048) (d : Fin 256) : EReal :=
  (v (ix3 b (4 : Fin 5) d) + proj x v b t 0 * v (ix3 b (2 : Fin 5) d)) + proj x v b t 1 * v (ix3 b (3 : Fin 5) d)

/-- The whole result array. -/
def lora (x : (⟨3, ![64, 2048, 256]⟩ : Shape).Idx → EReal) (v : (⟨3, ![64, 5, 256]⟩ : Shape).Idx → EReal) :
    (⟨3, ![64, 2048, 256]⟩ : Shape).Idx → EReal :=
  fun i => entry x v (i 0) (i 1) (i 2)

theorem lora_apply (x : (⟨3, ![64, 2048, 256]⟩ : Shape).Idx → EReal) (v : (⟨3, ![64, 5, 256]⟩ : Shape).Idx → EReal)
    (b : Fin 64) (t : Fin 2048) (d : Fin 256) : lora x v (ix3 b t d) = entry x v b t d := rfl

/-- The five vectors of batch entry `b` from the interleaved factors and the bias: columns 0 and 1 of A,
    columns 0 and 1 of B, the bias row. -/
def packAt (gA gB : (⟨2, ![64, 512]⟩ : Shape).Idx → EReal) (gC : (⟨2, ![64, 256]⟩ : Shape).Idx → EReal)
    (b : Fin 64) (j : Fin 5) (d : Fin 256) : EReal :=
  match j with
  | 0 => gA (ix2 b (⟨2 * d.val + 0, by omega⟩ : Fin 512))
  | 1 => gA (ix2 b (⟨2 * d.val + 1, by omega⟩ : Fin 512))
  | 2 => gB (ix2 b (⟨2 * d.val + 0, by omega⟩ : Fin 512))
  | 3 => gB (ix2 b (⟨2 * d.val + 1, by omega⟩ : Fin 512))
  | 4 => gC (ix2 b d)

/-- The [64, 5, 256] array of the five vectors. -/
def pack (gA gB : (⟨2, ![64, 512]⟩ : Shape).Idx → EReal) (gC : (⟨2, ![64, 256]⟩ : Shape).Idx → EReal) :
    (⟨3, ![64, 5, 256]⟩ : Shape).Idx → EReal :=
  fun i => packAt gA gB gC (i 0) (i 1) (i 2)

theorem pack_apply (gA gB : (⟨2, ![64, 512]⟩ : Shape).Idx → EReal) (gC : (⟨2, ![64, 256]⟩ : Shape).Idx → EReal)
    (b : Fin 64) (j : Fin 5) (d : Fin 256) : pack gA gB gC (ix3 b j d) = packAt gA gB gC b j d := rfl

/-- An entry over the packed vectors, as the reference groups it: the sum over the two ranks of the
    projection on column r of A times B(b, d, r), plus the bias. -/
theorem entry_pack (x : (⟨3, ![64, 2048, 256]⟩ : Shape).Idx → EReal)
    (gA gB : (⟨2, ![64, 512]⟩ : Shape).Idx → EReal) (gC : (⟨2, ![64, 256]⟩ : Shape).Idx → EReal)
    (b : Fin 64) (t : Fin 2048) (d : Fin 256) :
    entry x (pack gA gB gC) b t d
      = (∑ r : Fin 2, (∑ k : Fin 256, x (ix3 b t k) * gA (ix2 b (⟨2 * k.val + r.val, by omega⟩ : Fin 512)))
            * gB (ix2 b (⟨2 * d.val + r.val, by omega⟩ : Fin 512)))
        + gC (ix2 b d) := by
  rw [Fin.sum_univ_two]
  unfold entry proj
  simp only [pack_apply]
  show (gC (ix2 b d) + _ * _) + _ * _ = (_ * _ + _ * _) + gC (ix2 b d)
  rw [add_assoc, add_comm]
  rfl

end Cert.Spec

end
-- ==== Proof.Ideal.Vectors.lean ====
/-
  The [64, 5, 256] array of the five vectors the region finds, over the extended reals.

  Before the region the host gathers, for every batch entry, its row of each of the three tables (the
  entry's index word, moved up by the table's height when negative), reshapes each gathered [64, 512]
  row of a factor to [64, 256, 2], cuts the two columns apart, lays each of the five [64, 256] matrices
  down as [64, 1, 256] and concatenates them along the middle axis. Entry (b, j, d) of the result is
  therefore column 2d of row b of the gathered A rows (j = 0), column 2d + 1 (j = 1), the same two
  columns of the gathered B rows (j = 2, 3), and entry (b, d) of the gathered bias rows (j = 4): the
  array `Spec.pack` of the gathered rows.
-/
import proofs.«158795_j58050777972930_2_alg».proof.Proof.Ideal.Entry
import proofs.«158795_j58050777972930_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem

/-! ## The host's terms -/

/-- Each batch entry's index word as a [64, 1] column, a negative word moved up by 5000. -/
def rowWords (x1 : (⟨S64, .i32⟩ : BufTy).Contents (Elt Ideal)) : (⟨S64x1, .i32⟩ : BufTy).Contents (Elt Ideal) :=
  broadcastInDim S64x1 ![0] bcast_S64_S64x1_0
    (select (cmpi .slt x1 (broadcastInDim S64 ![] bcast_S_S64 (constantI S_ 32 0#32)))
      (addi x1 (broadcastInDim S64 ![] bcast_S_S64 (constantI S_ 32 5000#32))) x1)

/-- The gathered rows of a factor table. -/
def rowsF (x1 : (⟨S64, .i32⟩ : BufTy).Contents (Elt Ideal)) (x : (⟨S5000x512, .f32⟩ : BufTy).Contents (Elt Ideal)) :
    (⟨S64x512, .f32⟩ : BufTy).Contents (Elt Ideal) :=
  Host.gather gather_S5000x512_S64x1_S64x512_1_0_n_n_0_1_1512 x (rowWords x1)

/-- The gathered rows of the bias table. -/
def rowsC (x1 : (⟨S64, .i32⟩ : BufTy).Contents (Elt Ideal)) (x : (⟨S5000x256, .f32⟩ : BufTy).Contents (Elt Ideal)) :
    (⟨S64x256, .f32⟩ : BufTy).Contents (Elt Ideal) :=
  Host.gather gather_S5000x256_S64x1_S64x256_1_0_n_n_0_1_1256 x (rowWords x1)

/-- A [64, 256] matrix laid down as [64, 1, 256]. -/
def laid (y : (⟨S64x256, .f32⟩ : BufTy).Contents (Elt Ideal)) : (⟨S64x1x256, .f32⟩ : BufTy).Contents (Elt Ideal) :=
  broadcastInDim S64x1x256 ![0, 2] bcast_S64x256_S64x1x256_0_2 y

/-- Column `r` of the gathered rows of a factor, as a [64, 256] matrix. -/
def column (g : (⟨S64x512, .f32⟩ : BufTy).Contents (Elt Ideal)) (r : Nat) (hs : S64x256x2.Slices ![0, 0, r] S64x256x1) :
    (⟨S64x256, .f32⟩ : BufTy).Contents (Elt Ideal) :=
  shapeCast S64x256 (extractStridedSlice S64x256x1 ![0, 0, r] (shapeCast S64x256x2 g shapeCasts_S64x512_S64x256x2) hs)
    shapeCasts_S64x256x1_S64x256

/-- The five vectors, each laid down as [64, 1, 256]. -/
abbrev five (x1 : (⟨S64, .i32⟩ : BufTy).Contents (Elt Ideal)) (x2 x3 : (⟨S5000x512, .f32⟩ : BufTy).Contents (Elt Ideal))
    (x4 : (⟨S5000x256, .f32⟩ : BufTy).Contents (Elt Ideal)) : List ((s : Shape) × (s.Idx → EReal)) :=
  [⟨S64x1x256, laid (column (rowsF x1 x2) 0 slices_S64x256x2_S64x256x1_0_0_0)⟩,
   ⟨S64x1x256, laid (column (rowsF x1 x2) 1 slices_S64x256x2_S64x256x1_0_0_1)⟩,
   ⟨S64x1x256, laid (column (rowsF x1 x3) 0 slices_S64x256x2_S64x256x1_0_0_0)⟩,
   ⟨S64x1x256, laid (column (rowsF x1 x3) 1 slices_S64x256x2_S64x256x1_0_0_1)⟩,
   ⟨S64x1x256, laid (rowsC x1 x4)⟩]

/-- The five vectors side by side. -/
def vectors (x1 : (⟨S64, .i32⟩ : BufTy).Contents (Elt Ideal)) (x2 x3 : (⟨S5000x512, .f32⟩ : BufTy).Contents (Elt Ideal))
    (x4 : (⟨S5000x256, .f32⟩ : BufTy).Contents (Elt Ideal)) : (⟨S64x5x256, .f32⟩ : BufTy).Contents (Elt Ideal) :=
  concatenate S64x5x256 1 (five x1 x2 x3 x4)
    concatenates_S64x1x256_S64x1x256_S64x1x256_S64x1x256_S64x1x256_S64x5x256_d1

variable (m : (ℓ : Loc nD τ sig) → Buf (Elt Ideal) ℓ)

/-- What the region finds in the buffer of the five vectors. -/
theorem entry_vectors (c : Dev nD) :
    (V m c main_v36 : S64x5x256.Idx → EReal)
      = vectors (m ((c : Thread nD τ).loc main_arg1)) (m ((c : Thread nD τ).loc main_arg2))
          (m ((c : Thread nD τ).loc main_arg3)) (m ((c : Thread nD τ).loc main_arg4)) := by
  dsimp only [V, hostOps0]
  after_results
  rfl

/-! ## Read at an entry -/

/-- A matrix laid down as [64, 1, 256]: entry (b, u, d) is the matrix's entry (b, d). -/
theorem laid_apply (y : (⟨S64x256, .f32⟩ : BufTy).Contents (Elt Ideal)) (b : Fin 64) (u : Fin 1) (d : Fin 256) :
    laid y (ix3 b u d) = y (ix2 b d) :=
  broadcastInDim_apply _ bcast_S64x256_S64x1x256_0_2 y (ix3 b u d) (ix2 b d) (fun a => match a with
    | ⟨0, _⟩ => by show b.val = if (64 : Nat) = 1 then 0 else b.val; rw [if_neg (by decide)]
    | ⟨1, _⟩ => by show d.val = if (256 : Nat) = 1 then 0 else d.val; rw [if_neg (by decide)])

/-- Column `r` of the gathered rows: entry (b, d) is column 2d + r of row b. -/
theorem column_apply (g : (⟨S64x512, .f32⟩ : BufTy).Contents (Elt Ideal)) (r : Fin 2)
    (hs : S64x256x2.Slices ![0, 0, r.val] S64x256x1) (b : Fin 64) (d : Fin 256) :
    column g r.val hs (ix2 b d) = g (ix2 b (⟨2 * d.val + r.val, by omega⟩ : Fin 512)) := by
  unfold column
  refine (shapeCast_apply _ shapeCasts_S64x256x1_S64x256 (ix2 b d) (ix3 b d (0 : Fin 1)) ?_).trans ?_
  · rw [Shape.rowMajor_val_three, Shape.rowMajor_val_two]
    show (b.val * 256 + d.val) * 1 + 0 = b.val * 256 + d.val
    omega
  refine (extractStridedSlice_apply ![0, 0, r.val] _ hs (ix3 b d (0 : Fin 1)) (ix3 b d r) (fun a => ?_)).trans ?_
  · match a with
    | ⟨0, _⟩ => exact (Nat.zero_add _).symm
    | ⟨1, _⟩ => exact (Nat.zero_add _).symm
    | ⟨2, _⟩ => show r.val = r.val + 0; omega
  refine shapeCast_apply g shapeCasts_S64x512_S64x256x2 (ix3 b d r) (ix2 b (⟨2 * d.val + r.val, by omega⟩ : Fin 512)) ?_
  rw [Shape.rowMajor_val_two, Shape.rowMajor_val_three]
  show b.val * 512 + (2 * d.val + r.val) = (b.val * 256 + d.val) * 2 + r.val
  omega

/-- Five [64, 1, 256] arrays side by side along the middle axis: entry (b, j, d) is entry (b, 0, d) of the
    j-th array. -/
theorem side_by_side_0 (y0 y1 y2 y3 y4 : S64x1x256.Idx → EReal)
    (h : Shape.Concatenates [S64x1x256, S64x1x256, S64x1x256, S64x1x256, S64x1x256] S64x5x256 1) (b : Fin 64) (d : Fin 256) :
    concatenate S64x5x256 1 [⟨S64x1x256, y0⟩, ⟨S64x1x256, y1⟩, ⟨S64x1x256, y2⟩, ⟨S64x1x256, y3⟩, ⟨S64x1x256, y4⟩] h (ix3 b (0 : Fin 5) d)
      = y0 (ix3 b (0 : Fin 1) d) :=
  concatenate_apply_piece (t := S64x5x256) (1 : Fin 3) [⟨S64x1x256, y0⟩, ⟨S64x1x256, y1⟩, ⟨S64x1x256, y2⟩, ⟨S64x1x256, y3⟩, ⟨S64x1x256, y4⟩] h
    (ix3 b (0 : Fin 5) d) 0 (by simp) S64x1x256 y0 rfl rfl 0 rfl (ix3 b (0 : Fin 1) d)
    (fun b' hb => by
      match b' with
      | ⟨0, _⟩ => rfl
      | ⟨1, _⟩ => exact absurd rfl hb
      | ⟨2, _⟩ => rfl) rfl

theorem side_by_side_1 (y0 y1 y2 y3 y4 : S64x1x256.Idx → EReal)
    (h : Shape.Concatenates [S64x1x256, S64x1x256, S64x1x256, S64x1x256, S64x1x256] S64x5x256 1) (b : Fin 64) (d : Fin 256) :
    concatenate S64x5x256 1 [⟨S64x1x256, y0⟩, ⟨S64x1x256, y1⟩, ⟨S64x1x256, y2⟩, ⟨S64x1x256, y3⟩, ⟨S64x1x256, y4⟩] h (ix3 b (1 : Fin 5) d)
      = y1 (ix3 b (0 : Fin 1) d) :=
  concatenate_apply_piece (t := S64x5x256) (1 : Fin 3) [⟨S64x1x256, y0⟩, ⟨S64x1x256, y1⟩, ⟨S64x1x256, y2⟩, ⟨S64x1x256, y3⟩, ⟨S64x1x256, y4⟩] h
    (ix3 b (1 : Fin 5) d) 1 (by simp) S64x1x256 y1 rfl rfl 1 rfl (ix3 b (0 : Fin 1) d)
    (fun b' hb => by
      match b' with
      | ⟨0, _⟩ => rfl
      | ⟨1, _⟩ => exact absurd rfl hb
      | ⟨2, _⟩ => rfl) rfl

theorem side_by_side_2 (y0 y1 y2 y3 y4 : S64x1x256.Idx → EReal)
    (h : Shape.Concatenates [S64x1x256, S64x1x256, S64x1x256, S64x1x256, S64x1x256] S64x5x256 1) (b : Fin 64) (d : Fin 256) :
    concatenate S64x5x256 1 [⟨S64x1x256, y0⟩, ⟨S64x1x256, y1⟩, ⟨S64x1x256, y2⟩, ⟨S64x1x256, y3⟩, ⟨S64x1x256, y4⟩] h (ix3 b (2 : Fin 5) d)
      = y2 (ix3 b (0 : Fin 1) d) :=
  concatenate_apply_piece (t := S64x5x256) (1 : Fin 3) [⟨S64x1x256, y0⟩, ⟨S64x1x256, y1⟩, ⟨S64x1x256, y2⟩, ⟨S64x1x256, y3⟩, ⟨S64x1x256, y4⟩] h
    (ix3 b (2 : Fin 5) d) 2 (by simp) S64x1x256 y2 rfl rfl 2 rfl (ix3 b (0 : Fin 1) d)
    (fun b' hb => by
      match b' with
      | ⟨0, _⟩ => rfl
      | ⟨1, _⟩ => exact absurd rfl hb
      | ⟨2, _⟩ => rfl) rfl

theorem side_by_side_3 (y0 y1 y2 y3 y4 : S64x1x256.Idx → EReal)
    (h : Shape.Concatenates [S64x1x256, S64x1x256, S64x1x256, S64x1x256, S64x1x256] S64x5x256 1) (b : Fin 64) (d : Fin 256) :
    concatenate S64x5x256 1 [⟨S64x1x256, y0⟩, ⟨S64x1x256, y1⟩, ⟨S64x1x256, y2⟩, ⟨S64x1x256, y3⟩, ⟨S64x1x256, y4⟩] h (ix3 b (3 : Fin 5) d)
      = y3 (ix3 b (0 : Fin 1) d) :=
  concatenate_apply_piece (t := S64x5x256) (1 : Fin 3) [⟨S64x1x256, y0⟩, ⟨S64x1x256, y1⟩, ⟨S64x1x256, y2⟩, ⟨S64x1x256, y3⟩, ⟨S64x1x256, y4⟩] h
    (ix3 b (3 : Fin 5) d) 3 (by simp) S64x1x256 y3 rfl rfl 3 rfl (ix3 b (0 : Fin 1) d)
    (fun b' hb => by
      match b' with
      | ⟨0, _⟩ => rfl
      | ⟨1, _⟩ => exact absurd rfl hb
      | ⟨2, _⟩ => rfl) rfl

theorem side_by_side_4 (y0 y1 y2 y3 y4 : S64x1x256.Idx → EReal)
    (h : Shape.Concatenates [S64x1x256, S64x1x256, S64x1x256, S64x1x256, S64x1x256] S64x5x256 1) (b : Fin 64) (d : Fin 256) :
    concatenate S64x5x256 1 [⟨S64x1x256, y0⟩, ⟨S64x1x256, y1⟩, ⟨S64x1x256, y2⟩, ⟨S64x1x256, y3⟩, ⟨S64x1x256, y4⟩] h (ix3 b (4 : Fin 5) d)
      = y4 (ix3 b (0 : Fin 1) d) :=
  concatenate_apply_piece (t := S64x5x256) (1 : Fin 3) [⟨S64x1x256, y0⟩, ⟨S64x1x256, y1⟩, ⟨S64x1x256, y2⟩, ⟨S64x1x256, y3⟩, ⟨S64x1x256, y4⟩] h
    (ix3 b (4 : Fin 5) d) 4 (by simp) S64x1x256 y4 rfl rfl 4 rfl (ix3 b (0 : Fin 1) d)
    (fun b' hb => by
      match b' with
      | ⟨0, _⟩ => rfl
      | ⟨1, _⟩ => exact absurd rfl hb
      | ⟨2, _⟩ => rfl) rfl

/-- Entry (b, j, d) of the five vectors, from the gathered rows. -/
theorem vectors_apply (x1 : (⟨S64, .i32⟩ : BufTy).Contents (Elt Ideal)) (x2 x3 : (⟨S5000x512, .f32⟩ : BufTy).Contents (Elt Ideal))
    (x4 : (⟨S5000x256, .f32⟩ : BufTy).Contents (Elt Ideal)) (b : Fin 64) (j : Fin 5) (d : Fin 256) :
    vectors x1 x2 x3 x4 (ix3 b j d) = Cert.Spec.packAt (rowsF x1 x2) (rowsF x1 x3) (rowsC x1 x4) b j d := by
  unfold vectors five
  match j with
  | ⟨0, _⟩ => exact (side_by_side_0 _ _ _ _ _ _ b d).trans ((laid_apply _ b 0 d).trans (column_apply _ 0 _ b d))
  | ⟨1, _⟩ => exact (side_by_side_1 _ _ _ _ _ _ b d).trans ((laid_apply _ b 0 d).trans (column_apply _ 1 _ b d))
  | ⟨2, _⟩ => exact (side_by_side_2 _ _ _ _ _ _ b d).trans ((laid_apply _ b 0 d).trans (column_apply _ 0 _ b d))
  | ⟨3, _⟩ => exact (side_by_side_3 _ _ _ _ _ _ b d).trans ((laid_apply _ b 0 d).trans (column_apply _ 1 _ b d))
  | ⟨4, _⟩ => exact (side_by_side_4 _ _ _ _ _ _ b d).trans (laid_apply _ b 0 d)

/-- The five vectors are `Spec.pack` of the gathered rows. -/
theorem vectors_eq (x1 : (⟨S64, .i32⟩ : BufTy).Contents (Elt Ideal)) (x2 x3 : (⟨S5000x512, .f32⟩ : BufTy).Contents (Elt Ideal))
    (x4 : (⟨S5000x256, .f32⟩ : BufTy).Contents (Elt Ideal)) :
    vectors x1 x2 x3 x4 = Cert.Spec.pack (rowsF x1 x2) (rowsF x1 x3) (rowsC x1 x4) := by
  funext i
  obtain ⟨b, j, d, rfl⟩ : ∃ (b : Fin 64) (j : Fin 5) (d : Fin 256), i = ix3 b j d := ⟨i 0, i 1, i 2, eq_ix3 i⟩
  exact vectors_apply x1 x2 x3 x4 b j d

end Cert.KernelIdeal.Hand

end
-- ==== Proof.Ideal.Result.lean ====
/-
  The result array of `KernelIdeal` after its run, as one function of the argument arrays, over the
  extended reals.

  Grid point t = (bi, ti) stages rows 16·bi … 16·bi+15 of the batch axis and rows 512·ti … 512·ti+511 of
  the sequence axis of the latent array, the five vectors of the same 16 batch entries, and writes back
  the same block of the result. The block the body leaves there is `blockFn` of the two input blocks,
  which is block t of `Spec.lora` of the latent array and the array of the five vectors as the region
  finds them (`flushed_block`). The 4 × 4 blocks tile the [64, 2048, 256] result (`covered`), so the
  result array ends at `Spec.lora` everywhere (`result_array`, `run`).
-/
import proofs.«158795_j58050777972930_2_alg».proof.Proof.Ideal.Block
import proofs.«158795_j58050777972930_2_alg».proof.Proof.Ideal.Vectors
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## Where the blocks sit -/

/-- The three windows move together: at every grid point the latent block and the result block have the
    same block index, the five vectors' block has the same batch index, and the block indices on the
    axes that are not tiled are 0. -/
theorem block_indices : ∀ t : Fin cfg0.N,
    win0_0.index t (0 : Fin 3) = win0_2.index t (0 : Fin 3) ∧ win0_0.index t (1 : Fin 3) = win0_2.index t (1 : Fin 3)
    ∧ win0_0.index t (2 : Fin 3) = 0 ∧ win0_2.index t (2 : Fin 3) = 0
    ∧ win0_1.index t (0 : Fin 3) = win0_2.index t (0 : Fin 3) ∧ win0_1.index t (1 : Fin 3) = 0 ∧ win0_1.index t (2 : Fin 3) = 0
    ∧ win0_2.index t (0 : Fin 3) ≤ 3 ∧ win0_2.index t (1 : Fin 3) ≤ 3 :=
  (by decide +kernel : ∀ t : Fin grid0.N, _)

/-- Every block of the result is some grid point's. -/
theorem block_onto : ∀ (q0 : Fin 4) (q1 : Fin 4), ∃ t : Fin cfg0.N, win0_2.index t = ![q0.val, q1.val, 0] :=
  (by decide +kernel : ∀ (q0 : Fin 4) (q1 : Fin 4), ∃ t : Fin grid0.N, win0_2.index t = ![q0.val, q1.val, 0])

/-- The batch entry that entry `b` of point `t`'s blocks is, -/
def batchOf (t : Fin cfg0.N) (b : Fin 16) : Fin 64 :=
  ⟨win0_2.index t (0 : Fin 3) * 16 + b.val, by
    have h := (block_indices t).2.2.2.2.2.2.2.1; have hb := b.isLt; omega⟩

/-- and the sequence row that row `r` is. -/
def seqOf (t : Fin cfg0.N) (r : Fin 512) : Fin 2048 :=
  ⟨win0_2.index t (1 : Fin 3) * 512 + r.val, by
    have h := (block_indices t).2.2.2.2.2.2.2.2; have hr := r.isLt; omega⟩

theorem out_at (t : Fin cfg0.N) (b : Fin 16) (r : Fin 512) (d : Fin 256) :
    ((cfg0.win 2).blk t).view.emb (ix3 b r d) = ix3 (batchOf t b) (seqOf t r) d := by
  obtain ⟨e0, e1, e2, e3, e4, e5, e6, e7, e8⟩ := block_indices t
  funext a; apply Fin.ext
  match a with
  | ⟨0, _⟩ => show win0_2.index t (0 : Fin 3) * 16 + 1 * b.val = win0_2.index t (0 : Fin 3) * 16 + b.val; omega
  | ⟨1, _⟩ => show win0_2.index t (1 : Fin 3) * 512 + 1 * r.val = win0_2.index t (1 : Fin 3) * 512 + r.val; omega
  | ⟨2, _⟩ => show win0_2.index t (2 : Fin 3) * 256 + 1 * d.val = d.val; omega

theorem latent_at (t : Fin cfg0.N) (b : Fin 16) (r : Fin 512) (k : Fin 256) :
    ((cfg0.win 0).blk t).view.emb (ix3 b r k) = ix3 (batchOf t b) (seqOf t r) k := by
  obtain ⟨e0, e1, e2, e3, e4, e5, e6, e7, e8⟩ := block_indices t
  funext a; apply Fin.ext
  match a with
  | ⟨0, _⟩ => show win0_0.index t (0 : Fin 3) * 16 + 1 * b.val = win0_2.index t (0 : Fin 3) * 16 + b.val; omega
  | ⟨1, _⟩ => show win0_0.index t (1 : Fin 3) * 512 + 1 * r.val = win0_2.index t (1 : Fin 3) * 512 + r.val; omega
  | ⟨2, _⟩ => show win0_0.index t (2 : Fin 3) * 256 + 1 * k.val = k.val; omega

theorem vectors_at (t : Fin cfg0.N) (b : Fin 16) (j : Fin 5) (d : Fin 256) :
    ((cfg0.win 1).blk t).view.emb (ix3 b j d) = ix3 (batchOf t b) j d := by
  obtain ⟨e0, e1, e2, e3, e4, e5, e6, e7, e8⟩ := block_indices t
  funext a; apply Fin.ext
  match a with
  | ⟨0, _⟩ => show win0_1.index t (0 : Fin 3) * 16 + 1 * b.val = win0_2.index t (0 : Fin 3) * 16 + b.val; omega
  | ⟨1, _⟩ => show win0_1.index t (1 : Fin 3) * 5 + 1 * j.val = j.val; omega
  | ⟨2, _⟩ => show win0_1.index t (2 : Fin 3) * 256 + 1 * d.val = d.val; omega

/-- The latent block at point `t` read at an entry. -/
theorem latent_block (c : Dev nD) (t : Fin cfg0.N) (b : Fin 16) (r : Fin 512) (k : Fin 256) :
    iblk m c 0 t (ix3 b r k) = V m c main_arg0 (ix3 (batchOf t b) (seqOf t r) k) := by
  show V m c main_arg0 (((cfg0.win 0).blk t).view.emb (ix3 b r k)) = _
  rw [latent_at]

/-- The block of the five vectors at point `t` read at an entry. -/
theorem vectors_block (c : Dev nD) (t : Fin cfg0.N) (b : Fin 16) (j : Fin 5) (d : Fin 256) :
    iblk m c 1 t (ix3 b j d) = V m c main_v36 (ix3 (batchOf t b) j d) := by
  show V m c main_v36 (((cfg0.win 1).blk t).view.emb (ix3 b j d)) = _
  rw [vectors_at]

/-! ## What a point writes back -/

/-- What point `t` writes back is block `t` of `Spec.lora` of the latent array and the five vectors as
    the region finds them. -/
theorem flushed_block (c : Dev nD) (t : Fin cfg0.N) :
    (dats m 0 c).flushed 2 t
      = ((cfg0.win 2).blk t).view.read (Elt Ideal) (Cert.Spec.lora (V m c main_arg0) (V m c main_v36)) := by
  show (cfg0.win 2).cut (grid0.coords t) ((dats m 0 c).after 2 t) = _
  rw [after_2]
  unfold outAt
  rw [bodyOut_eq]
  funext y
  obtain ⟨b, r, d, rfl⟩ : ∃ (b : Fin 16) (r : Fin 512) (d : Fin 256), y = ix3 b r d := ⟨y 0, y 1, y 2, eq_ix3 y⟩
  show blockAt (iblk m c 0 t) (iblk m c 1 t) b r d
    = Cert.Spec.lora (V m c main_arg0) (V m c main_v36) (((cfg0.win 2).blk t).view.emb (ix3 b r d))
  rw [out_at, Cert.Spec.lora_apply]
  unfold blockAt Cert.Spec.entry Cert.Spec.proj
  simp only [latent_block, vectors_block]

/-! ## The blocks tile the result -/

theorem mem_block (t : Fin cfg0.N) (i : S64x2048x256.Idx) :
    i ∈ ((cfg0.win 2).blk t).view.set ↔
      ∀ a : Fin 3, win0_2.index t a * S16x512x256.size a ≤ (i a).val ∧ (i a).val < win0_2.index t a * S16x512x256.size a + S16x512x256.size a := by
  show i ∈ ((View.whole main_v37).slice (win0_2.rect t)).set ↔ _
  rw [View.set_slice_whole, Rect.mem_set_unit]
  exact Iff.rfl

/-- Every entry of the result lies in the block some grid point writes back. -/
theorem covered (i : S64x2048x256.Idx) :
    ∃ t : Fin cfg0.N, (cfg0.win 2).flush t = true ∧ i ∈ ((cfg0.win 2).blk t).view.set := by
  have hi0 : (i 0).val < 64 := (i 0).isLt
  have hi1 : (i 1).val < 2048 := (i 1).isLt
  have hi2 : (i 2).val < 256 := (i 2).isLt
  obtain ⟨t, ht⟩ := block_onto ⟨(i 0).val / 16, by omega⟩ ⟨(i 1).val / 512, by omega⟩
  have q0 : win0_2.index t (0 : Fin 3) = (i 0).val / 16 := congrFun ht 0
  have q1 : win0_2.index t (1 : Fin 3) = (i 1).val / 512 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 16 ≤ (i 0).val ∧ (i 0).val < win0_2.index t (0 : Fin 3) * 16 + 16; omega
  | ⟨1, _⟩ => show win0_2.index t (1 : Fin 3) * 512 ≤ (i 1).val ∧ (i 1).val < win0_2.index t (1 : Fin 3) * 512 + 512; omega
  | ⟨2, _⟩ => show win0_2.index t (2 : Fin 3) * 256 ≤ (i 2).val ∧ (i 2).val < win0_2.index t (2 : Fin 3) * 256 + 256; omega

/-! ## The result array -/

/-- After the run the result array holds `Spec.lora` of the latent array and the five vectors as the
    region finds them. -/
theorem result_array (c : Dev nD) :
    (dats m 0 c).arrAt 2 cfg0.N = Cert.Spec.lora (V m c main_arg0) (V m c main_v36) :=
  (dats m 0 c).arrAt_eq_of_cover 2 (Cert.Spec.lora (V m c main_arg0) (V m c main_v36))
    (fun t _ => flushed_block m c t) covered

/-- The run of `KernelIdeal`: the result array ends at `Spec.lora` of the launched latent array and the
    five vectors packed from the gathered rows; the five argument arrays end as launched. -/
theorem run : θ_run defs (onTc (τ := τ) (main (F := Ideal))) ⟨m, fun _ => 0, ρ⟩ fun r => ∀ c : Dev nD,
      r.2.mem ((c : Thread nD τ).loc main_v37)
        = Cert.Spec.lora (m ((c : Thread nD τ).loc main_arg0))
            (Cert.Spec.pack (rowsF (m ((c : Thread nD τ).loc main_arg1)) (m ((c : Thread nD τ).loc main_arg2)))
              (rowsF (m ((c : Thread nD τ).loc main_arg1)) (m ((c : Thread nD τ).loc main_arg3)))
              (rowsC (m ((c : Thread nD τ).loc main_arg1)) (m ((c : Thread nD τ).loc main_arg4))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
      ⟨((h c).1 2).trans ((result_array m c).trans (by rw [entry_arg0, entry_vectors, vectors_eq])),
        ((h c).1 0).trans (((dats m 0 c).arrAt_in 0 rfl _).trans ((A_eq m c 0).trans (entry_arg0 m c))),
        ((h c).2 main_arg1 (Pipeline.mem_restRefs_of main_arg1 (by decide) (by decide))).trans (entry_arg1 m c),
        ((h c).2 main_arg2 (Pipeline.mem_restRefs_of main_arg2 (by decide) (by decide))).trans (entry_arg2 m c),
        ((h c).2 main_arg3 (Pipeline.mem_restRefs_of main_arg3 (by decide) (by decide))).trans (entry_arg3 m c),
        ((h c).2 main_arg4 (Pipeline.mem_restRefs_of main_arg4 (by decide) (by decide))).trans (entry_arg4 m c)⟩)
    (run_main m ρ)

end Cert.KernelIdeal.Hand

end
-- ==== Proof.RefValue.lean ====
/-
  The reference's result, entry by entry, over the extended reals.

  The reference gathers the rows of the three tables, reshapes each gathered [64, 512] row of a factor to
  [64, 256, 2] (row b, column 2k + r becomes entry (b, k, r)), multiplies the latent array by A batch
  entry by batch entry (summing over the 256 columns), multiplies the result by the transpose of B
  (summing over the two ranks), and adds the bias row to every row. Entry (b, t, d) is therefore the
  sum over r of <x(b, t, ·), A(b, ·, r)> · B(b, d, r), plus bias(b, d): the function `Spec.lora` of the
  five vectors packed from the gathered rows.
-/
import proofs.«158795_j58050777972930_2_alg».proof.Proof.Gen.ReferenceIdeal.Read
import proofs.«158795_j58050777972930_2_alg».proof.Proof.Spec

noncomputable section

namespace Cert.ReferenceIdeal.RefValue

open Cert.ReferenceIdeal Cert.ReferenceIdeal.Read
open Idealize.ShloMosaic Idealize.ShloMosaic.ValueIdx

/-! ## Where each operation reads its operands -/

theorem second_lhs (b : Fin 64) (t : Fin 2048) (d : Fin 256) (r : Fin 2) :
    lidx_main_v24 (ix3 b t d) r = ix3 b t r :=
  funext fun a => Fin.ext (by match a with | ⟨0, _⟩ => rfl | ⟨1, _⟩ => rfl | ⟨2, _⟩ => rfl)

theorem second_rhs (b : Fin 64) (t : Fin 2048) (d : Fin 256) (r : Fin 2) :
    ridx_main_v24 (ix3 b t d) r = ix3 b d r :=
  funext fun a => Fin.ext (by match a with | ⟨0, _⟩ => rfl | ⟨1, _⟩ => rfl | ⟨2, _⟩ => rfl)

theorem first_lhs (b : Fin 64) (t : Fin 2048) (r : Fin 2) (k : Fin 256) :
    lidx_main_v23 (ix3 b t r) k = ix3 b t k :=
  funext fun a => Fin.ext (by match a with | ⟨0, _⟩ => rfl | ⟨1, _⟩ => rfl | ⟨2, _⟩ => rfl)

theorem first_rhs (b : Fin 64) (t : Fin 2048) (r : Fin 2) (k : Fin 256) :
    ridx_main_v23 (ix3 b t r) k = ix3 b k r :=
  funext fun a => Fin.ext (by match a with | ⟨0, _⟩ => rfl | ⟨1, _⟩ => rfl | ⟨2, _⟩ => rfl)

/-- Entry (b, k, r) of a reshaped factor is column 2k + r of row b. -/
theorem interleaved_A (b : Fin 64) (k : Fin 256) (r : Fin 2) :
    idx_main_v7 (ix3 b k r) = ix2 b (⟨2 * k.val + r.val, by omega⟩ : Fin 512) :=
  funext fun a => Fin.ext (by
    have hb := b.isLt; have hk := k.isLt; have hr := r.isLt
    match a with
    | ⟨0, _⟩ => show ((b.val * 256 + k.val) * 2 + r.val) / 512 = b.val; omega
    | ⟨1, _⟩ => show ((b.val * 256 + k.val) * 2 + r.val) % 512 = 2 * k.val + r.val; omega)

theorem interleaved_B (b : Fin 64) (k : Fin 256) (r : Fin 2) :
    idx_main_v15 (ix3 b k r) = ix2 b (⟨2 * k.val + r.val, by omega⟩ : Fin 512) :=
  funext fun a => Fin.ext (by
    have hb := b.isLt; have hk := k.isLt; have hr := r.isLt
    match a with
    | ⟨0, _⟩ => show ((b.val * 256 + k.val) * 2 + r.val) / 512 = b.val; omega
    | ⟨1, _⟩ => show ((b.val * 256 + k.val) * 2 + r.val) % 512 = 2 * k.val + r.val; omega)

/-- The bias row copied to every row of the result. -/
theorem bias_row (b : Fin 64) (t : Fin 2048) (d : Fin 256) :
    idx_main_v25 (idx_main_v26 (ix3 b t d)) = ix2 b d :=
  funext fun a => Fin.ext (by match a with | ⟨0, _⟩ => rfl | ⟨1, _⟩ => rfl)

/-! ## The result -/

/-- The reference's result is `Spec.lora` of the latent array and the five vectors packed from the
    gathered rows. -/
theorem result_eq (x0 : (⟨S64x2048x256, .f32⟩ : BufTy).Contents (Elt Ideal)) (x1 : (⟨S64, .i32⟩ : BufTy).Contents (Elt Ideal))
    (x2 x3 : (⟨S5000x512, .f32⟩ : BufTy).Contents (Elt Ideal)) (x4 : (⟨S5000x256, .f32⟩ : BufTy).Contents (Elt Ideal)) :
    val_main_v27 (F := Ideal) x0 x1 x2 x3 x4
      = Cert.Spec.lora x0 (Cert.Spec.pack (val_main_v6 (F := Ideal) x1 x2) (val_main_v14 (F := Ideal) x1 x3) (val_main_v22 (F := Ideal) x1 x4)) := by
  funext i
  obtain ⟨b, t, d, rfl⟩ : ∃ (b : Fin 64) (t : Fin 2048) (d : Fin 256), i = ix3 b t d := ⟨i 0, i 1, i 2, eq_ix3 i⟩
  rw [Cert.Spec.lora_apply, Cert.Spec.entry_pack, val_main_v27_apply, val_main_v24_apply, val_main_v26_apply, val_main_v25_apply, bias_row]
  refine congrArg₂ (· + ·) (Finset.sum_congr rfl fun r _ => ?_) rfl
  rw [second_lhs, second_rhs, val_main_v23_apply, val_main_v15_apply, interleaved_B]
  refine congrArg₂ (· * ·) (Finset.sum_congr rfl fun k _ => ?_) rfl
  rw [first_lhs, first_rhs, val_main_v7_apply, interleaved_A]

end Cert.ReferenceIdeal.RefValue

end
-- ==== Proof.lean ====
/-
  The kernel computes, for each of 64 batch entries with its own index into three tables, a rank-2
  update of a bias row applied to every one of 2048 latent rows of length 256:

      out(b, t, d) = bias(b, d) + <x(b, t, ·), a0(b, ·)> · b0(b, d) + <x(b, t, ·), a1(b, ·)> · b1(b, d),

  where a0, a1 are the two columns of the batch entry's gathered factor A, b0, b1 those of its factor B.
  The reference computes the product of x with A (summing over the 256 columns), the product of the
  result with the transpose of B (summing over the two ranks) and adds the bias row. Over the extended
  reals the two differ only in the order and grouping of three summands, so they are equal without any
  finiteness of the inputs (`Spec.entry_pack`).

  The frames: the kernel's one region runs to the end at either instance (Bits/Frame, Ideal/Frame: the
  body's loop of four trips stores four slabs that tile the result block), the reference is host
  operations only. The kernel's result array is read off its run block by block (Ideal/Block,
  Ideal/Result), the host's packing of the five vectors is read entry by entry (Ideal/Vectors), and the
  reference's result entry by entry (RefValue); the gathered rows are the same terms in both programs.
-/
import proofs.«158795_j58050777972930_2_alg».proof.Defs
import proofs.«158795_j58050777972930_2_alg».proof.Proof.Gen.Kernel
import proofs.«158795_j58050777972930_2_alg».proof.Proof.Gen.KernelIdeal
import proofs.«158795_j58050777972930_2_alg».proof.Proof.Gen.ReferenceIdeal
import proofs.«158795_j58050777972930_2_alg».proof.Proof.Gen.ReferenceIdeal.Run
import proofs.«158795_j58050777972930_2_alg».proof.Proof.Gen.Pre_finite_inputs
import proofs.«158795_j58050777972930_2_alg».proof.Proof.Bits.Frame
import proofs.«158795_j58050777972930_2_alg».proof.Proof.Ideal.Result
import proofs.«158795_j58050777972930_2_alg».proof.Proof.RefValue

noncomputable section

namespace Cert.Proof

open Idealize.ShloMosaic Idealize.ShloMosaic.TcCoe Idealize.SL.Sem

/-! ## The gathered rows are the same in both programs -/

theorem rows_A (x1 : (⟨Cert.KernelIdeal.S64, .i32⟩ : BufTy).Contents (Elt Ideal))
    (x : (⟨Cert.KernelIdeal.S5000x512, .f32⟩ : BufTy).Contents (Elt Ideal)) :
    Cert.ReferenceIdeal.Read.val_main_v6 (F := Ideal) x1 x = Cert.KernelIdeal.Hand.rowsF x1 x := rfl

theorem rows_B (x1 : (⟨Cert.KernelIdeal.S64, .i32⟩ : BufTy).Contents (Elt Ideal))
    (x : (⟨Cert.KernelIdeal.S5000x512, .f32⟩ : BufTy).Contents (Elt Ideal)) :
    Cert.ReferenceIdeal.Read.val_main_v14 (F := Ideal) x1 x = Cert.KernelIdeal.Hand.rowsF x1 x := rfl

theorem rows_C (x1 : (⟨Cert.KernelIdeal.S64, .i32⟩ : BufTy).Contents (Elt Ideal))
    (x : (⟨Cert.KernelIdeal.S5000x256, .f32⟩ : BufTy).Contents (Elt Ideal)) :
    Cert.ReferenceIdeal.Read.val_main_v22 (F := Ideal) x1 x = Cert.KernelIdeal.Hand.rowsC x1 x := rfl

/-! ## The claims -/

theorem frame_k : Cert.frame_Kernel := fun m ρ _ => Cert.Kernel.Hand.frame m ρ

theorem frame_ki : Cert.frame_KernelIdeal := fun m ρ _ => Cert.KernelIdeal.Hand.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten for the idealized reading. -/
theorem preserves : Cert.preserves_Kernel_KernelIdeal := trivial

/-- Both programs end with the result array at `Spec.lora` of the latent array and the five vectors
    packed from the gathered rows. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  refine (Cert.ReferenceIdeal.Read.val_main_v27_eq _ _ _ _ _).trans
    ((Cert.ReferenceIdeal.RefValue.result_eq _ _ _ _ _).trans ?_)
  rw [rows_A, rows_B, rows_C]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
